-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9x2 : Shape := ⟨2, ![9, 2]⟩
abbrev S16x64x64x2 : Shape := ⟨4, ![16, 64, 64, 2]⟩
abbrev S16x9x64x64x4 : Shape := ⟨5, ![16, 9, 64, 64, 4]⟩
abbrev S16x40x5 : Shape := ⟨3, ![16, 40, 5]⟩
abbrev S_ : Shape := ⟨0, ![]⟩

class Facts : Prop where
  bcast_S_S9x2 : S_.BroadcastsInDim S9x2 (![] : Fin 0 → Fin S9x2.rank)
  reducesTo_S9x2_S_d0_1 : S9x2.ReducesTo [0, 1] S_
  h_S_ : 0 < S_.numel
  bcast_S_S16x64x64x2 : S_.BroadcastsInDim S16x64x64x2 (![] : Fin 0 → Fin S16x64x64x2.rank)
  reducesTo_S16x64x64x2_S_d0_1_2_3 : S16x64x64x2.ReducesTo [0, 1, 2, 3] S_
  bcast_S_S16x9x64x64x4 : S_.BroadcastsInDim S16x9x64x64x4 (![] : Fin 0 → Fin S16x9x64x64x4.rank)
  reducesTo_S16x9x64x64x4_S_d0_1_2_3_4 : S16x9x64x64x4.ReducesTo [0, 1, 2, 3, 4] S_
  bcast_S_S16x40x5 : S_.BroadcastsInDim S16x40x5 (![] : Fin 0 → Fin S16x40x5.rank)
  reducesTo_S16x40x5_S_d0_1_2 : S16x40x5.ReducesTo [0, 1, 2] S_

variable [Facts]

def fn_part1 {F : FTy → Type} [FloatOps F] (main_v13 : IVec S_ 1) (main_v16 : IVec S16x40x5 1) : IVec S_ 1 :=
  let main_c_5 : IVec S_ 1 := constantI S_ 1 1#1
  let main_v17 : IVec S_ 1 := (fun x v => Host.reduce IntOp.andi x v reducesTo_S16x40x5_S_d0_1_2 h_S_) main_v16 main_c_5
  let main_v18 : IVec S_ 1 := andi main_v13 main_v17
  main_v18

def fn {F : FTy → Type} [FloatOps F] (main_arg0 : FVec F S9x2 .f32) (main_arg1 : FVec F S16x64x64x2 .f32) (main_arg2 : FVec F S16x9x64x64x4 .f32) (main_arg3 : FVec F S16x40x5 .f32) : IVec S_ 1 :=
  let main_v0 : FVec F S9x2 .f32 := Host.absf main_arg0
  let main_cst : FVec F S_ .f32 := constant S_ .f32 0x7F800000#32
  let main_v1 : FVec F S9x2 .f32 := broadcastInDim S9x2 ![] bcast_S_S9x2 main_cst
  let main_v2 : IVec S9x2 1 := cmpf .olt main_v0 main_v1
  let main_c : IVec S_ 1 := constantI S_ 1 1#1
  let main_v3 : IVec S_ 1 := (fun x v => Host.reduce IntOp.andi x v reducesTo_S9x2_S_d0_1 h_S_) main_v2 main_c
  let main_v4 : FVec F S16x64x64x2 .f32 := Host.absf main_arg1
  let main_cst_0 : FVec F S_ .f32 := constant S_ .f32 0x7F800000#32
  let main_v5 : FVec F S16x64x64x2 .f32 := broadcastInDim S16x64x64x2 ![] bcast_S_S16x64x64x2 main_cst_0
  let main_v6 : IVec S16x64x64x2 1 := cmpf .olt main_v4 main_v5
  let main_c_1 : IVec S_ 1 := constantI S_ 1 1#1
  let main_v7 : IVec S_ 1 := (fun x v => Host.reduce IntOp.andi x v reducesTo_S16x64x64x2_S_d0_1_2_3 h_S_) main_v6 main_c_1
  let main_v8 : IVec S_ 1 := andi main_v3 main_v7
  let main_v9 : FVec F S16x9x64x64x4 .f32 := Host.absf main_arg2
  let main_cst_2 : FVec F S_ .f32 := constant S_ .f32 0x7F800000#32
  let main_v10 : FVec F S16x9x64x64x4 .f32 := broadcastInDim S16x9x64x64x4 ![] bcast_S_S16x9x64x64x4 main_cst_2
  let main_v11 : IVec S16x9x64x64x4 1 := cmpf .olt main_v9 main_v10
  let main_c_3 : IVec S_ 1 := constantI S_ 1 1#1
  let main_v12 : IVec S_ 1 := (fun x v => Host.reduce IntOp.andi x v reducesTo_S16x9x64x64x4_S_d0_1_2_3_4 h_S_) main_v11 main_c_3
  let main_v13 : IVec S_ 1 := andi main_v8 main_v12
  let main_v14 : FVec F S16x40x5 .f32 := Host.absf main_arg3
  let main_cst_4 : FVec F S_ .f32 := constant S_ .f32 0x7F800000#32
  let main_v15 : FVec F S16x40x5 .f32 := broadcastInDim S16x40x5 ![] bcast_S_S16x40x5 main_cst_4
  let main_v16 : IVec S16x40x5 1 := cmpf .olt main_v14 main_v15
  fn_part1 (F := F) main_v13 main_v16
-- ==== Kernel.lean ====
abbrev S9x2 : Shape := ⟨2, ![9, 2]⟩
abbrev S16x64x64x2 : Shape := ⟨4, ![16, 64, 64, 2]⟩
abbrev S16x9x64x64x4 : Shape := ⟨5, ![16, 9, 64, 64, 4]⟩
abbrev S16x40x5 : Shape := ⟨3, ![16, 40, 5]⟩
abbrev S16x4096x2 : Shape := ⟨3, ![16, 4096, 2]⟩
abbrev S16x9x4096x4 : Shape := ⟨4, ![16, 9, 4096, 4]⟩
abbrev S9x1x2 : Shape := ⟨3, ![9, 1, 2]⟩
abbrev S16x9x4096x40 : Shape := ⟨4, ![16, 9, 4096, 40]⟩
abbrev S1x1x2 : Shape := ⟨3, ![1, 1, 2]⟩
abbrev S1x4096x2 : Shape := ⟨3, ![1, 4096, 2]⟩
abbrev S1x1x4096x4 : Shape := ⟨4, ![1, 1, 4096, 4]⟩
abbrev S1x40x5 : Shape := ⟨3, ![1, 40, 5]⟩
abbrev S1x1x4096x40 : Shape := ⟨4, ![1, 1, 4096, 40]⟩
abbrev S2 : Shape := ⟨1, ![2]⟩
abbrev S4096x2 : Shape := ⟨2, ![4096, 2]⟩
abbrev S4096x4 : Shape := ⟨2, ![4096, 4]⟩
abbrev S1x2 : Shape := ⟨2, ![1, 2]⟩
abbrev S4096x1 : Shape := ⟨2, ![4096, 1]⟩
abbrev S4096 : Shape := ⟨1, ![4096]⟩
abbrev S40x5 : Shape := ⟨2, ![40, 5]⟩
abbrev S40x1 : Shape := ⟨2, ![40, 1]⟩
abbrev S40 : Shape := ⟨1, ![40]⟩
abbrev S1x40 : Shape := ⟨2, ![1, 40]⟩
abbrev S4096x40 : Shape := ⟨2, ![4096, 40]⟩
abbrev S16x36864x40 : Shape := ⟨3, ![16, 36864, 40]⟩

abbrev nBuf : Space → Nat
  | .hbm => 9
  | .vmem => 10
  | .smem => 0
  | _ => 0

abbrev bufTy : (tb : Table) → Fin (tcTables nBuf tb) → BufTy
  | .hbm, ⟨0, _⟩ => ⟨S9x2, .f32⟩
  | .hbm, ⟨1, _⟩ => ⟨S16x64x64x2, .f32⟩
  | .hbm, ⟨2, _⟩ => ⟨S16x9x64x64x4, .f32⟩
  | .hbm, ⟨3, _⟩ => ⟨S16x40x5, .f32⟩
  | .hbm, ⟨4, _⟩ => ⟨S16x4096x2, .f32⟩
  | .hbm, ⟨5, _⟩ => ⟨S16x9x4096x4, .f32⟩
  | .hbm, ⟨6, _⟩ => ⟨S9x1x2, .f32⟩
  | .hbm, ⟨7, _⟩ => ⟨S16x9x4096x40, .f32⟩
  | .hbm, ⟨8, _⟩ => ⟨S16x36864x40, .f32⟩
  | .local _ .vmem, ⟨0, _⟩ => ⟨S1x1x2, .f32⟩
  | .local _ .vmem, ⟨1, _⟩ => ⟨S1x1x2, .f32⟩
  | .local _ .vmem, ⟨2, _⟩ => ⟨S1x4096x2, .f32⟩
  | .local _ .vmem, ⟨3, _⟩ => ⟨S1x4096x2, .f32⟩
  | .local _ .vmem, ⟨4, _⟩ => ⟨S1x1x4096x4, .f32⟩
  | .local _ .vmem, ⟨5, _⟩ => ⟨S1x1x4096x4, .f32⟩
  | .local _ .vmem, ⟨6, _⟩ => ⟨S1x40x5, .f32⟩
  | .local _ .vmem, ⟨7, _⟩ => ⟨S1x40x5, .f32⟩
  | .local _ .vmem, ⟨8, _⟩ => ⟨S1x1x4096x40, .f32⟩
  | .local _ .vmem, ⟨9, _⟩ => ⟨S1x1x4096x40, .f32⟩
  | _, _ => ⟨S9x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x64x64x2_S16x4096x2 : S16x64x64x2.ShapeCasts S16x4096x2
  shapeCasts_S16x9x64x64x4_S16x9x4096x4 : S16x9x64x64x4.ShapeCasts S16x9x4096x4
  shapeCasts_S9x2_S9x1x2 : S9x2.ShapeCasts S9x1x2
  inb_S1x1x2_S1x1x2_0_0_0 : ∀ a, (![0, 0, 0] : Fin 3 → Nat) a + S1x1x2.size a ≤ S1x1x2.size a
  h_S1x1x2 : 0 < S1x1x2.numel
  shapeCasts_S1x1x2_S2 : S1x1x2.ShapeCasts S2
  inb_S1x4096x2_S1x4096x2_0_0_0 : ∀ a, (![0, 0, 0] : Fin 3 → Nat) a + S1x4096x2.size a ≤ S1x4096x2.size a
  h_S1x4096x2 : 0 < S1x4096x2.numel
  shapeCasts_S1x4096x2_S4096x2 : S1x4096x2.ShapeCasts S4096x2
  inb_S1x1x4096x4_S1x1x4096x4_0_0_0_0 : ∀ a, (![0, 0, 0, 0] : Fin 4 → Nat) a + S1x1x4096x4.size a ≤ S1x1x4096x4.size a
  h_S1x1x4096x4 : 0 < S1x1x4096x4.numel
  shapeCasts_S1x1x4096x4_S4096x4 : S1x1x4096x4.ShapeCasts S4096x4
  slices_S4096x4_o0_0_S4096x2 : S4096x4.Slices ![0, 0] S4096x2
  slices_S4096x4_o0_2_S4096x2 : S4096x4.Slices ![0, 2] S4096x2
  shapeCasts_S2_S1x2 : S2.ShapeCasts S1x2
  broadcasts_S1x2_S4096x2 : S1x2.Broadcasts S4096x2
  slices_S4096x2_o0_0_S4096x1 : S4096x2.Slices ![0, 0] S4096x1
  shapeCasts_S4096x1_S4096 : S4096x1.ShapeCasts S4096
  slices_S4096x2_o0_1_S4096x1 : S4096x2.Slices ![0, 1] S4096x1
  inb_S1x40x5_S1x40x5_0_0_0 : ∀ a, (![0, 0, 0] : Fin 3 → Nat) a + S1x40x5.size a ≤ S1x40x5.size a
  h_S1x40x5 : 0 < S1x40x5.numel
  shapeCasts_S1x40x5_S40x5 : S1x40x5.ShapeCasts S40x5
  slices_S40x5_o0_0_S40x1 : S40x5.Slices ![0, 0] S40x1
  shapeCasts_S40x1_S40 : S40x1.ShapeCasts S40
  slices_S40x5_o0_1_S40x1 : S40x5.Slices ![0, 1] S40x1
  slices_S40x5_o0_2_S40x1 : S40x5.Slices ![0, 2] S40x1
  slices_S40x5_o0_3_S40x1 : S40x5.Slices ![0, 3] S40x1
  shapeCasts_S4096_S4096x1 : S4096.ShapeCasts S4096x1
  shapeCasts_S40_S1x40 : S40.ShapeCasts S1x40
  broadcasts_S4096x1_S4096x40 : S4096x1.Broadcasts S4096x40
  broadcasts_S1x40_S4096x40 : S1x40.Broadcasts S4096x40
  inb_S1x1x4096x40_S1x1x4096x40_0_0_0_0 : ∀ a, (![0, 0, 0, 0] : Fin 4 → Nat) a + S1x1x4096x40.size a ≤ S1x1x4096x40.size a
  h_S1x1x4096x40 : 0 < S1x1x4096x40.numel
  shapeCasts_S1x1x4096x40_S4096x40 : S1x1x4096x40.ShapeCasts S4096x40
  shapeCasts_S4096x40_S1x1x4096x40 : S4096x40.ShapeCasts S1x1x4096x40
  shapeCasts_S16x9x4096x40_S16x36864x40 : S16x9x4096x40.ShapeCasts S16x36864x40
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2.size a ≤ S9x1x2.size a
  hwx0_0 : ∀ i : grid0.Coords, EltTy.bits .f32 = 32 ∨ (Rect.block (s := S9x1x2) S1x1x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x2.size a ≤ S16x4096x2.size a
  hwx0_1 : ∀ i : grid0.Coords, EltTy.bits .f32 = 32 ∨ (Rect.block (s := S16x4096x2) S1x4096x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x4.size a ≤ S16x9x4096x4.size a
  hwx0_2 : ∀ i : grid0.Coords, EltTy.bits .f32 = 32 ∨ (Rect.block (s := S16x9x4096x4) S1x1x4096x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x40x5.size a ≤ S16x40x5.size a
  hwx0_3 : ∀ i : grid0.Coords, EltTy.bits .f32 = 32 ∨ (Rect.block (s := S16x40x5) S1x40x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096x40.size a ≤ S16x9x4096x40.size a
  hwx0_4 : ∀ i : grid0.Coords, EltTy.bits .f32 = 32 ∨ (Rect.block (s := S16x9x4096x40) S1x1x4096x40.size (cc0_transform_4 i) (hinb0_4 i)).WholeWords (EltTy.packing .f32)

variable [Facts₀]

abbrev win0_0 : Pipeline.Window sig grid0 :=
  Pipeline.Window.ofSpec (Memref.whole main_v2) S1x1x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x4096x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x40x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x4096x40.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S9x2 : Shape := ⟨2, ![9, 2]⟩
abbrev S16x64x64x2 : Shape := ⟨4, ![16, 64, 64, 2]⟩
abbrev S16x9x64x64x4 : Shape := ⟨5, ![16, 9, 64, 64, 4]⟩
abbrev S16x40x5 : Shape := ⟨3, ![16, 40, 5]⟩
abbrev S_ : Shape := ⟨0, ![]⟩
abbrev S1x9x1x1x2 : Shape := ⟨5, ![1, 9, 1, 1, 2]⟩
abbrev S16x1x64x64x2 : Shape := ⟨5, ![16, 1, 64, 64, 2]⟩
abbrev S16x9x64x64x2 : Shape := ⟨5, ![16, 9, 64, 64, 2]⟩
abbrev S16x9x64x64x1 : Shape := ⟨5, ![16, 9, 64, 64, 1]⟩
abbrev S16x9x64x64 : Shape := ⟨4, ![16, 9, 64, 64]⟩
abbrev S16x36864x1x4 : Shape := ⟨4, ![16, 36864, 1, 4]⟩
abbrev S16x40x4 : Shape := ⟨3, ![16, 40, 4]⟩
abbrev S16x1x40x4 : Shape := ⟨4, ![16, 1, 40, 4]⟩
abbrev S16x36864x1x1 : Shape := ⟨4, ![16, 36864, 1, 1]⟩
abbrev S16x36864x1 : Shape := ⟨3, ![16, 36864, 1]⟩
abbrev S16x1x40x1 : Shape := ⟨4, ![16, 1, 40, 1]⟩
abbrev S16x1x40 : Shape := ⟨3, ![16, 1, 40]⟩
abbrev S16x36864x40 : Shape := ⟨3, ![16, 36864, 40]⟩

abbrev nBuf : Space → Nat
  | .hbm => 146
  | .vmem => 0
  | .smem => 0
  | _ => 0

abbrev hbmTy0_0 (i : Nat) : BufTy := match i % 128 with
  | 0 => ⟨S9x2, .f32⟩
  | 1 => ⟨S16x64x64x2, .f32⟩
  | 2 => ⟨S16x9x64x64x4, .f32⟩
  | 3 => ⟨S16x40x5, .f32⟩
  | 4 => ⟨S_, .f32⟩
  | 5 => ⟨S9x2, .f32⟩
  | 6 => ⟨S9x2, .f32⟩
  | 7 => ⟨S1x9x1x1x2, .f32⟩
  | 8 => ⟨S16x1x64x64x2, .f32⟩
  | 9 => ⟨S16x9x64x64x2, .f32⟩
  | 10 => ⟨S16x9x64x64x2, .f32⟩
  | 11 => ⟨S16x9x64x64x2, .f32⟩
  | 12 => ⟨S16x9x64x64x2, .f32⟩
  | 13 => ⟨S16x9x64x64x2, .f32⟩
  | 14 => ⟨S16x9x64x64x2, .f32⟩
  | 15 => ⟨S16x9x64x64x4, .f32⟩
  | 16 => ⟨S16x9x64x64x1, .f32⟩
  | 17 => ⟨S16x9x64x64, .f32⟩
  | 18 => ⟨S16x9x64x64x1, .f32⟩
  | 19 => ⟨S16x9x64x64, .f32⟩
  | 20 => ⟨S16x9x64x64, .f32⟩
  | 21 => ⟨S_, .f32⟩
  | 22 => ⟨S16x9x64x64, .f32⟩
  | 23 => ⟨S16x9x64x64, .f32⟩
  | 24 => ⟨S16x9x64x64x1, .f32⟩
  | 25 => ⟨S16x9x64x64, .f32⟩
  | 26 => ⟨S16x9x64x64, .f32⟩
  | 27 => ⟨S16x9x64x64x1, .f32⟩
  | 28 => ⟨S16x9x64x64, .f32⟩
  | 29 => ⟨S16x9x64x64x1, .f32⟩
  | 30 => ⟨S16x9x64x64, .f32⟩
  | 31 => ⟨S16x9x64x64, .f32⟩
  | 32 => ⟨S_, .f32⟩
  | 33 => ⟨S16x9x64x64, .f32⟩
  | 34 => ⟨S16x9x64x64, .f32⟩
  | 35 => ⟨S16x9x64x64x1, .f32⟩
  | 36 => ⟨S16x9x64x64, .f32⟩
  | 37 => ⟨S16x9x64x64, .f32⟩
  | 38 => ⟨S16x9x64x64x1, .f32⟩
  | 39 => ⟨S16x9x64x64, .f32⟩
  | 40 => ⟨S16x9x64x64x1, .f32⟩
  | 41 => ⟨S16x9x64x64, .f32⟩
  | 42 => ⟨S16x9x64x64, .f32⟩
  | 43 => ⟨S16x9x64x64x1, .f32⟩
  | 44 => ⟨S16x9x64x64, .f32⟩
  | 45 => ⟨S16x9x64x64, .f32⟩
  | 46 => ⟨S16x9x64x64, .f32⟩
  | 47 => ⟨S16x9x64x64x1, .f32⟩
  | 48 => ⟨S16x9x64x64, .f32⟩
  | 49 => ⟨S16x9x64x64x1, .f32⟩
  | 50 => ⟨S16x9x64x64, .f32⟩
  | 51 => ⟨S16x9x64x64, .f32⟩
  | 52 => ⟨S16x9x64x64x1, .f32⟩
  | 53 => ⟨S16x9x64x64, .f32⟩
  | 54 => ⟨S16x9x64x64, .f32⟩
  | 55 => ⟨S16x9x64x64, .f32⟩
  | 56 => ⟨S_, .f32⟩
  | 57 => ⟨S16x9x64x64, .f32⟩
  | 58 => ⟨S16x9x64x64, .f32⟩
  | 59 => ⟨S16x9x64x64, .f32⟩
  | 60 => ⟨S_, .f32⟩
  | 61 => ⟨S16x9x64x64, .f32⟩
  | 62 => ⟨S16x9x64x64, .f32⟩
  | 63 => ⟨S16x9x64x64, .f32⟩
  | 64 => ⟨S_, .f32⟩
  | 65 => ⟨S16x9x64x64, .f32⟩
  | 66 => ⟨S16x9x64x64, .f32⟩
  | 67 => ⟨S16x9x64x64, .f32⟩
  | 68 => ⟨S_, .f32⟩
  | 69 => ⟨S16x9x64x64, .f32⟩
  | 70 => ⟨S16x9x64x64, .f32⟩
  | 71 => ⟨S16x9x64x64, .f32⟩
  | 72 => ⟨S16x9x64x64x1, .f32⟩
  | 73 => ⟨S16x9x64x64x1, .f32⟩
  | 74 => ⟨S16x9x64x64x1, .f32⟩
  | 75 => ⟨S16x9x64x64x1, .f32⟩
  | 76 => ⟨S16x9x64x64x4, .f32⟩
  | 77 => ⟨S16x36864x1x4, .f32⟩
  | 78 => ⟨S16x40x4, .f32⟩
  | 79 => ⟨S16x1x40x4, .f32⟩
  | 80 => ⟨S16x36864x1x1, .f32⟩
  | 81 => ⟨S16x36864x1, .f32⟩
  | 82 => ⟨S16x1x40x1, .f32⟩
  | 83 => ⟨S16x1x40, .f32⟩
  | 84 => ⟨S16x36864x40, .f32⟩
  | 85 => ⟨S16x36864x40, .f32⟩
  | 86 => ⟨S16x36864x40, .f32⟩
  | 87 => ⟨S16x36864x1x1, .f32⟩
  | 88 => ⟨S16x36864x1, .f32⟩
  | 89 => ⟨S16x1x40x1, .f32⟩
  | 90 => ⟨S16x1x40, .f32⟩
  | 91 => ⟨S16x36864x40, .f32⟩
  | 92 => ⟨S16x36864x40, .f32⟩
  | 93 => ⟨S16x36864x40, .f32⟩
  | 94 => ⟨S16x36864x1x1, .f32⟩
  | 95 => ⟨S16x36864x1, .f32⟩
  | 96 => ⟨S16x1x40x1, .f32⟩
  | 97 => ⟨S16x1x40, .f32⟩
  | 98 => ⟨S16x36864x40, .f32⟩
  | 99 => ⟨S16x36864x40, .f32⟩
  | 100 => ⟨S16x36864x40, .f32⟩
  | 101 => ⟨S16x36864x1x1, .f32⟩
  | 102 => ⟨S16x36864x1, .f32⟩
  | 103 => ⟨S16x1x40x1, .f32⟩
  | 104 => ⟨S16x1x40, .f32⟩
  | 105 => ⟨S16x36864x40, .f32⟩
  | 106 => ⟨S16x36864x40, .f32⟩
  | 107 => ⟨S16x36864x40, .f32⟩
  | 108 => ⟨S16x36864x40, .f32⟩
  | 109 => ⟨S_, .f32⟩
  | 110 => ⟨S_, .f32⟩
  | 111 => ⟨S16x36864x40, .f32⟩
  | 112 => ⟨S16x36864x40, .f32⟩
  | 113 => ⟨S16x36864x40, .f32⟩
  | 114 => ⟨S_, .f32⟩
  | 115 => ⟨S_, .f32⟩
  | 116 => ⟨S16x36864x40, .f32⟩
  | 117 => ⟨S16x36864x40, .f32⟩
  | 118 => ⟨S16x36864x40, .f32⟩
  | 119 => ⟨S16x36864x1x1, .f32⟩
  | 120 => ⟨S16x36864x1, .f32⟩
  | 121 => ⟨S16x36864x1x1, .f32⟩
  | 122 => ⟨S16x36864x1, .f32⟩
  | 123 => ⟨S16x36864x1, .f32⟩
  | 124 => ⟨S16x36864x1x1, .f32⟩
  | 125 => ⟨S16x36864x1, .f32⟩
  | 126 => ⟨S16x36864x1x1, .f32⟩
  | 127 => ⟨S16x36864x1, .f32⟩
  | _ => ⟨S9x2, .f32⟩

abbrev hbmTy0_1 (i : Nat) : BufTy := match i % 128 with
  | 0 => ⟨S16x36864x1, .f32⟩
  | 1 => ⟨S16x36864x1, .f32⟩
  | 2 => ⟨S16x1x40x1, .f32⟩
  | 3 => ⟨S16x1x40, .f32⟩
  | 4 => ⟨S16x1x40x1, .f32⟩
  | 5 => ⟨S16x1x40, .f32⟩
  | 6 => ⟨S16x1x40, .f32⟩
  | 7 => ⟨S16x1x40x1, .f32⟩
  | 8 => ⟨S16x1x40, .f32⟩
  | 9 => ⟨S16x1x40x1, .f32⟩
  | 10 => ⟨S16x1x40, .f32⟩
  | 11 => ⟨S16x1x40, .f32⟩
  | 12 => ⟨S16x1x40, .f32⟩
  | 13 => ⟨S16x36864x40, .f32⟩
  | 14 => ⟨S16x36864x40, .f32⟩
  | 15 => ⟨S16x36864x40, .f32⟩
  | 16 => ⟨S16x36864x40, .f32⟩
  | 17 => ⟨S16x36864x40, .f32⟩
  | _ => ⟨S9x2, .f32⟩

abbrev hbmTy (i : Nat) : BufTy := match i / 128 with
  | 0 => hbmTy0_0 i
  | 1 => hbmTy0_1 i
  | _ => ⟨S9x2, .f32⟩

abbrev bufTy : (tb : Table) → Fin (tcTables nBuf tb) → BufTy
  | .hbm, ⟨i, _⟩ => hbmTy i
  | _, _ => ⟨S9x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_2 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_3 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_6 : Ref sig .tc := ⟨.hbm, 109, rfl⟩
abbrev main_call0_v0 : Ref sig .tc := ⟨.hbm, 110, rfl⟩
abbrev main_call0_v1 : Ref sig .tc := ⟨.hbm, 111, rfl⟩
abbrev main_v98 : Ref sig .tc := ⟨.hbm, 112, rfl⟩
abbrev main_v99 : Ref sig .tc := ⟨.hbm, 113, rfl⟩
abbrev main_cst_7 : Ref sig .tc := ⟨.hbm, 114, rfl⟩
abbrev main_call1_v0 : Ref sig .tc := ⟨.hbm, 115, rfl⟩
abbrev main_call1_v1 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩

abbrev nD : Nat := 1
abbrev τ : Topo := Topo.v7x

variable {F : FTy → Type} [FloatOps F]

class Facts₀ : Prop where
  bcast_S_S9x2 : S_.BroadcastsInDim S9x2 (![] : Fin 0 → Fin S9x2.rank)
  bcast_S9x2_S1x9x1x1x2_1_4 : S9x2.BroadcastsInDim S1x9x1x1x2 (![1, 4] : Fin 2 → Fin S1x9x1x1x2.rank)
  bcast_S16x64x64x2_S16x1x64x64x2_0_2_3_4 : S16x64x64x2.BroadcastsInDim S16x1x64x64x2 (![0, 2, 3, 4] : Fin 4 → Fin S16x1x64x64x2.rank)
  bcast_S16x1x64x64x2_S16x9x64x64x2_0_1_2_3_4 : S16x1x64x64x2.BroadcastsInDim S16x9x64x64x2 (![0, 1, 2, 3, 4] : Fin 5 → Fin S16x9x64x64x2.rank)
  bcast_S1x9x1x1x2_S16x9x64x64x2_0_1_2_3_4 : S1x9x1x1x2.BroadcastsInDim S16x9x64x64x2 (![0, 1, 2, 3, 4] : Fin 5 → Fin S16x9x64x64x2.rank)
  concatenates_S16x9x64x64x2_S16x9x64x64x2_S16x9x64x64x4_d4 : Shape.Concatenates [S16x9x64x64x2, S16x9x64x64x2] S16x9x64x64x4 4
  slices_S16x9x64x64x4_S16x9x64x64x1_0_0_0_0_0 : S16x9x64x64x4.Slices ![0, 0, 0, 0, 0] S16x9x64x64x1
  shapeCasts_S16x9x64x64x1_S16x9x64x64 : S16x9x64x64x1.ShapeCasts S16x9x64x64
  slices_S16x9x64x64x4_S16x9x64x64x1_0_0_0_0_2 : S16x9x64x64x4.Slices ![0, 0, 0, 0, 2] S16x9x64x64x1
  bcast_S_S16x9x64x64 : S_.BroadcastsInDim S16x9x64x64 (![] : Fin 0 → Fin S16x9x64x64.rank)
  slices_S16x9x64x64x4_S16x9x64x64x1_0_0_0_0_1 : S16x9x64x64x4.Slices ![0, 0, 0, 0, 1] S16x9x64x64x1
  slices_S16x9x64x64x4_S16x9x64x64x1_0_0_0_0_3 : S16x9x64x64x4.Slices ![0, 0, 0, 0, 3] S16x9x64x64x1
  bcast_S16x9x64x64_S16x9x64x64x1_0_1_2_3 : S16x9x64x64.BroadcastsInDim S16x9x64x64x1 (![0, 1, 2, 3] : Fin 4 → Fin S16x9x64x64x1.rank)
  concatenates_S16x9x64x64x1_S16x9x64x64x1_S16x9x64x64x1_S16x9x64x64x1_S16x9x64x64x4_d4 : Shape.Concatenates [S16x9x64x64x1, S16x9x64x64x1, S16x9x64x64x1, S16x9x64x64x1] S16x9x64x64x4 4
  shapeCasts_S16x9x64x64x4_S16x36864x1x4 : S16x9x64x64x4.ShapeCasts S16x36864x1x4
  slices_S16x40x5_S16x40x4_0_0_0 : S16x40x5.Slices ![0, 0, 0] S16x40x4
  bcast_S16x40x4_S16x1x40x4_0_2_3 : S16x40x4.BroadcastsInDim S16x1x40x4 (![0, 2, 3] : Fin 3 → Fin S16x1x40x4.rank)
  slices_S16x36864x1x4_S16x36864x1x1_0_0_0_0 : S16x36864x1x4.Slices ![0, 0, 0, 0] S16x36864x1x1
  shapeCasts_S16x36864x1x1_S16x36864x1 : S16x36864x1x1.ShapeCasts S16x36864x1
  slices_S16x1x40x4_S16x1x40x1_0_0_0_0 : S16x1x40x4.Slices ![0, 0, 0, 0] S16x1x40x1
  shapeCasts_S16x1x40x1_S16x1x40 : S16x1x40x1.ShapeCasts S16x1x40
  bcast_S16x36864x1_S16x36864x40_0_1_2 : S16x36864x1.BroadcastsInDim S16x36864x40 (![0, 1, 2] : Fin 3 → Fin S16x36864x40.rank)
  bcast_S16x1x40_S16x36864x40_0_1_2 : S16x1x40.BroadcastsInDim S16x36864x40 (![0, 1, 2] : Fin 3 → Fin S16x36864x40.rank)
  slices_S16x36864x1x4_S16x36864x1x1_0_0_0_1 : S16x36864x1x4.Slices ![0, 0, 0, 1] S16x36864x1x1
  slices_S16x1x40x4_S16x1x40x1_0_0_0_1 : S16x1x40x4.Slices ![0, 0, 0, 1] S16x1x40x1
  slices_S16x36864x1x4_S16x36864x1x1_0_0_0_2 : S16x36864x1x4.Slices ![0, 0, 0, 2] S16x36864x1x1
  slices_S16x1x40x4_S16x1x40x1_0_0_0_2 : S16x1x40x4.Slices ![0, 0, 0, 2] S16x1x40x1
  slices_S16x36864x1x4_S16x36864x1x1_0_0_0_3 : S16x36864x1x4.Slices ![0, 0, 0, 3] S16x36864x1x1
  slices_S16x1x40x4_S16x1x40x1_0_0_0_3 : S16x1x40x4.Slices ![0, 0, 0, 3] S16x1x40x1
  bcast_S_S16x36864x40 : S_.BroadcastsInDim S16x36864x40 (![] : Fin 0 → Fin S16x36864x40.rank)

variable [Facts₀]

class Facts : Prop extends Facts₀ where

variable [Facts]
-- ==== Proof.LibReal.lean ====
/-
  Extended reals that are real numbers.

  The extended reals are not a ring: distributivity, cancellation and moving a sign across a sum fail at `⊤ + ⊥`. A
  comparison of two arrangements of one real computation is therefore made on entries known to be real, and this file
  keeps the book: the predicate "is a real number", its closure under the arithmetic operations and finite sums, the
  coercion of a finite sum, the fact that `tanh` of ANY extended real is real, and negation pulled out of a sum of reals.
-/
import Mathlib.Algebra.BigOperators.Fin
import Mathlib.Tactic.NormNum
import Idealize.ShloMosaic.PureOps.Ideal

noncomputable section

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.one : IsReal (1 : EReal) := ⟨1, EReal.coe_one.symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩

/-- `tanh` of any extended real is a real number: `∓1` at the infinities. -/
theorem IsReal.tanh (x : EReal) : IsReal (Ideal.tanh x) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- Negation comes out of a finite sum of REAL terms. -/
theorem sum_neg_of_real {ι : Type} (s : Finset ι) (f : ι → EReal) (h : ∀ i, IsReal (f i)) :
    ∑ i ∈ s, -(f i) = -(∑ i ∈ s, f i) := by
  choose r hr using h
  have e : f = fun i => (r i : EReal) := funext hr
  subst e
  simp only [← EReal.coe_neg, ← coe_sum]
  rw [Finset.sum_neg_distrib]

end Cert.LibReal

end
-- ==== Proof.Spec.lean ====
/-
  The overlap ratio of decoded boxes, as one function of the four argument arrays.

  For a batch entry b, an anchor a, a grid cell (y, x) and a ground-truth box n, both programs decode a proposal box
  from the cell centre g = grid[b,y,x,·], the anchor's size s = anc[a,·] and the offsets o = offsets[b,a,y,x,·], and
  return the ratio of the overlap of that box with bboxes[b,n,·] to the area of their union. The two programs decode
  the box along different routes:

    * one takes the centre g + t and the size (2·(s·½))·exp(u) directly;
    * the other first builds the anchor box [g − s·½, g + s·½], takes its midpoint ((g − s·½) + (g + s·½))·½ and
      its extent (g + s·½) − (g − s·½), and later recovers the size of the proposal as the difference of its corners.

  On real numbers the two routes agree (the midpoint of [g − h, g + h] is g, its extent is 2h, and the corners
  c ± w·½ are w apart); on extended reals they need not (∞ − ∞), which is why the law is stated for real entries.
  Everything after the decode — the four max/min, the two clamped differences, the areas and the quotient — is
  one shared function `ratio`.
-/
import proofs.«129367_j11338713661593_2_alg».proof.Proof.LibReal
import Idealize.ShloMosaic.Lib.ValueIdx
import Idealize.ShloMosaic.PureOps.Ideal.Laws
import Mathlib.Tactic.Ring
import Mathlib.Analysis.SpecialFunctions.Exp

noncomputable section

namespace Cert.Iou

open Idealize.ShloMosaic Idealize.ShloMosaic.ValueIdx Cert.LibReal

/-- The float words 0.5, 2.0 and 0.0 as extended reals. -/
abbrev wHalf : EReal := Ideal.ofBits .f32 0x3F000000#32
abbrev wTwo : EReal := Ideal.ofBits .f32 0x40000000#32
abbrev wZero : EReal := Ideal.ofBits .f32 0x00000000#32

theorem wHalf_eq : wHalf = ((1 / 2 : ℝ) : EReal) := by
  simp [wHalf, Ideal.ofBits, Ideal.ieee, -EReal.coe_mul]; norm_num
theorem wTwo_eq : wTwo = ((2 : ℝ) : EReal) := by
  simp [wTwo, Ideal.ofBits, Ideal.ieee, -EReal.coe_mul]; norm_num

/-- The overlap ratio of the box with corners (p0, p1), (p2, p3) and area `ap` against the box (b0, b1), (b2, b3):
    the overlap is the product of the two clamped side overlaps, the union the two areas less the overlap. -/
def ratio (p0 p1 p2 p3 ap b0 b1 b2 b3 : EReal) : EReal :=
  Ideal.div (max wZero (min p2 b2 - max p0 b0) * max wZero (min p3 b3 - max p1 b1))
    ((ap + (b2 - b0) * (b3 - b1)) - max wZero (min p2 b2 - max p0 b0) * max wZero (min p3 b3 - max p1 b1))

/-! ## The direct decode -/

/-- The proposal's size along one axis: anchor size s, log-scale u. -/
def dSize (s u : EReal) : EReal := (wTwo * (s * wHalf)) * Ideal.exp u
/-- Its low and high corners along one axis: centre g + t. -/
def dLo (g t s u : EReal) : EReal := (g + t) - dSize s u * wHalf
def dHi (g t s u : EReal) : EReal := (g + t) + dSize s u * wHalf

/-- The ratio by the direct decode. -/
def iouD (s0 s1 g0 g1 o0 o1 o2 o3 b0 b1 b2 b3 : EReal) : EReal :=
  ratio (dLo g0 o0 s0 o2) (dLo g1 o1 s1 o3) (dHi g0 o0 s0 o2) (dHi g1 o1 s1 o3) (dSize s0 o2 * dSize s1 o3) b0 b1 b2 b3

/-! ## The decode through the anchor box -/

def aCentre (g t s : EReal) : EReal := ((g - s * wHalf) + (g + s * wHalf)) * wHalf + t
def aSize (g s u : EReal) : EReal := ((g + s * wHalf) - (g - s * wHalf)) * Ideal.exp u
def aLo (g t s u : EReal) : EReal := aCentre g t s - aSize g s u * wHalf
def aHi (g t s u : EReal) : EReal := aCentre g t s + aSize g s u * wHalf

/-- The ratio by the decode through the anchor box, the proposal's area recovered from its corners. -/
def iouA (s0 s1 g0 g1 o0 o1 o2 o3 b0 b1 b2 b3 : EReal) : EReal :=
  ratio (aLo g0 o0 s0 o2) (aLo g1 o1 s1 o3) (aHi g0 o0 s0 o2) (aHi g1 o1 s1 o3)
    ((aHi g0 o0 s0 o2 - aLo g0 o0 s0 o2) * (aHi g1 o1 s1 o3 - aLo g1 o1 s1 o3)) b0 b1 b2 b3

/-! ## The two decodes agree on real entries -/

theorem exp_real (u : ℝ) : Ideal.exp (u : EReal) = ((Real.exp u : ℝ) : EReal) := Ideal.exp_coe u

theorem aLo_eq {g t s u : EReal} (hg : IsReal g) (ht : IsReal t) (hs : IsReal s) (hu : IsReal u) :
    aLo g t s u = dLo g t s u := by
  obtain ⟨g, rfl⟩ := hg; obtain ⟨t, rfl⟩ := ht; obtain ⟨s, rfl⟩ := hs; obtain ⟨u, rfl⟩ := hu
  simp only [aLo, dLo, aCentre, aSize, dSize, wHalf_eq, wTwo_eq, exp_real, ← EReal.coe_mul, ← EReal.coe_add, ← EReal.coe_sub]
  congr 1; ring

theorem aHi_eq {g t s u : EReal} (hg : IsReal g) (ht : IsReal t) (hs : IsReal s) (hu : IsReal u) :
    aHi g t s u = dHi g t s u := by
  obtain ⟨g, rfl⟩ := hg; obtain ⟨t, rfl⟩ := ht; obtain ⟨s, rfl⟩ := hs; obtain ⟨u, rfl⟩ := hu
  simp only [aHi, dHi, aCentre, aSize, dSize, wHalf_eq, wTwo_eq, exp_real, ← EReal.coe_mul, ← EReal.coe_add, ← EReal.coe_sub]
  congr 1; ring

theorem side_eq {g t s u : EReal} (hg : IsReal g) (ht : IsReal t) (hs : IsReal s) (hu : IsReal u) :
    aHi g t s u - aLo g t s u = dSize s u := by
  obtain ⟨g, rfl⟩ := hg; obtain ⟨t, rfl⟩ := ht; obtain ⟨s, rfl⟩ := hs; obtain ⟨u, rfl⟩ := hu
  simp only [aHi, aLo, aCentre, aSize, dSize, wHalf_eq, wTwo_eq, exp_real, ← EReal.coe_mul, ← EReal.coe_add, ← EReal.coe_sub]
  congr 1; ring

/-- On real anchor sizes, cell centres and offsets the two decodes give the same ratio, whatever the ground-truth box. -/
theorem iouA_eq_iouD {s0 s1 g0 g1 o0 o1 o2 o3 : EReal} (b0 b1 b2 b3 : EReal)
    (hs0 : IsReal s0) (hs1 : IsReal s1) (hg0 : IsReal g0) (hg1 : IsReal g1)
    (ho0 : IsReal o0) (ho1 : IsReal o1) (ho2 : IsReal o2) (ho3 : IsReal o3) :
    iouA s0 s1 g0 g1 o0 o1 o2 o3 b0 b1 b2 b3 = iouD s0 s1 g0 g1 o0 o1 o2 o3 b0 b1 b2 b3 := by
  unfold iouA iouD
  rw [side_eq hg0 ho0 hs0 ho2, side_eq hg1 ho1 hs1 ho3, aLo_eq hg0 ho0 hs0 ho2, aLo_eq hg1 ho1 hs1 ho3,
    aHi_eq hg0 ho0 hs0 ho2, aHi_eq hg1 ho1 hs1 ho3]

/-! ## The result array -/

abbrev SAnc : Shape := ⟨2, ![9, 2]⟩
abbrev SGrid : Shape := ⟨4, ![16, 64, 64, 2]⟩
abbrev SOff : Shape := ⟨5, ![16, 9, 64, 64, 4]⟩
abbrev SBox : Shape := ⟨3, ![16, 40, 5]⟩
abbrev SOut : Shape := ⟨3, ![16, 36864, 40]⟩

/-- Row r of the 36864 = 9·64·64 proposals of a batch entry is anchor r / 4096 at the cell (r / 64 mod 64, r mod 64). -/
def rowA (r : Fin 36864) : Fin 9 := ⟨r.val / 4096, by have := r.isLt; omega⟩
def rowY (r : Fin 36864) : Fin 64 := ⟨r.val / 64 % 64, by omega⟩
def rowX (r : Fin 36864) : Fin 64 := ⟨r.val % 64, by omega⟩

/-- The ratio of proposal r of batch entry b against box n, by either decode `f`. -/
def entry (f : EReal → EReal → EReal → EReal → EReal → EReal → EReal → EReal → EReal → EReal → EReal → EReal → EReal)
    (anc : SAnc.Idx → EReal) (grid : SGrid.Idx → EReal) (off : SOff.Idx → EReal) (bb : SBox.Idx → EReal)
    (b : Fin 16) (r : Fin 36864) (n : Fin 40) : EReal :=
  f (anc (ix2 (rowA r) 0)) (anc (ix2 (rowA r) 1))
    (grid (ix4 b (rowY r) (rowX r) 0)) (grid (ix4 b (rowY r) (rowX r) 1))
    (off (ix5 b (rowA r) (rowY r) (rowX r) 0)) (off (ix5 b (rowA r) (rowY r) (rowX r) 1))
    (off (ix5 b (rowA r) (rowY r) (rowX r) 2)) (off (ix5 b (rowA r) (rowY r) (rowX r) 3))
    (bb (ix3 b n 0)) (bb (ix3 b n 1)) (bb (ix3 b n 2)) (bb (ix3 b n 3))

/-- The whole result, by the direct decode. -/
def G (anc : SAnc.Idx → EReal) (grid : SGrid.Idx → EReal) (off : SOff.Idx → EReal) (bb : SBox.Idx → EReal) :
    SOut.Idx → EReal := fun i => entry iouD anc grid off bb (i 0) (i 1) (i 2)

/-- The whole result, by the decode through the anchor box. -/
def GA (anc : SAnc.Idx → EReal) (grid : SGrid.Idx → EReal) (off : SOff.Idx → EReal) (bb : SBox.Idx → EReal) :
    SOut.Idx → EReal := fun i => entry iouA anc grid off bb (i 0) (i 1) (i 2)

/-- With every anchor size, cell centre and offset real, the two results are one array. -/
theorem GA_eq_G (anc : SAnc.Idx → EReal) (grid : SGrid.Idx → EReal) (off : SOff.Idx → EReal) (bb : SBox.Idx → EReal)
    (ha : ∀ i, IsReal (anc i)) (hg : ∀ i, IsReal (grid i)) (ho : ∀ i, IsReal (off i)) :
    GA anc grid off bb = G anc grid off bb := by
  funext i
  exact iouA_eq_iouD _ _ _ _ (ha _) (ha _) (hg _) (hg _) (ho _) (ho _) (ho _) (ho _)

end Cert.Iou

end
-- ==== Proof.KernelBody.lean ====
/-
  The kernel body's stored value read at one index.

  The body reads the whole anchor-size, cell-centre, offset and box buffers, decodes the proposal's corners
  (g + t) ∓ dSize·½ on each axis and its area dSize₀·dSize₁, and stores, at proposal p and box n, the overlap
  ratio of that box with box n. Each intermediate vector is a layout operation (a reshape, a unit-stride slice,
  a broadcast along a new axis) or a pointwise operation of earlier ones, so reading it at an index is reading
  the operands at indices named by coordinates.
-/
import proofs.«129367_j11338713661593_2_alg».proof.Proof.Gen.KernelIdeal.Frame
import proofs.«129367_j11338713661593_2_alg».proof.Proof.Spec
import Idealize.ShloMosaic.Lib.Pipeline.Value
import Idealize.ShloMosaic.Lib.ValueIdx

noncomputable section

namespace Cert.KernelBody
open Idealize.ShloMosaic Idealize.ShloMosaic.ValueIdx Cert.KernelIdeal Cert.KernelIdeal.Gen

/-! ## Layout operations at an index -/

section Layout
variable {α : Type}

/-- Column c of a [4096, 2] array, taken as a [4096, 1] slice and flattened, at p is the array at (p, c). -/
theorem col_of_two (v : S4096x2.Idx → α) (o : Nat) (h : S4096x2.Slices ![0, o] S4096x1) (h' : S4096x1.ShapeCasts S4096)
    (p : Fin 4096) (c : Fin 2) (hc : c.val = o) :
    shapeCast S4096 (extractStridedSlice S4096x1 ![0, o] v h) h' (ix1 p) = v (ix2 p c) := by
  refine (shapeCast_apply _ _ (ix1 p) (ix2 p (0 : Fin 1)) (by
    rw [Shape.rowMajor_val_two, Shape.rowMajor_val_one]; show p.val * 1 + 0 = p.val; omega)).trans ?_
  exact extractStridedSlice_apply _ _ _ _ (ix2 p c) (fun a => match a with
    | ⟨0, _⟩ => by show p.val = 0 + p.val; omega
    | ⟨1, _⟩ => by show c.val = o + 0; omega)

/-- Column c of a [40, 5] array as a [40, 1] slice, at (n, 0), is the array at (n, c). -/
theorem slice_of_five (v : S40x5.Idx → α) (o : Nat) (h : S40x5.Slices ![0, o] S40x1) (n : Fin 40) (c : Fin 5) (hc : c.val = o) :
    extractStridedSlice S40x1 ![0, o] v h (ix2 n (0 : Fin 1)) = v (ix2 n c) :=
  extractStridedSlice_apply _ _ _ _ (ix2 n c) (fun a => match a with
    | ⟨0, _⟩ => by show n.val = 0 + n.val; omega
    | ⟨1, _⟩ => by show c.val = o + 0; omega)

/-- A [40, 1] column flattened, at n, is the column at (n, 0). -/
theorem flat_of_col (v : S40x1.Idx → α) (h' : S40x1.ShapeCasts S40) (n : Fin 40) :
    shapeCast S40 v h' (ix1 n) = v (ix2 n (0 : Fin 1)) :=
  shapeCast_apply _ _ (ix1 n) (ix2 n (0 : Fin 1)) (by
    rw [Shape.rowMajor_val_two, Shape.rowMajor_val_one]; show n.val * 1 + 0 = n.val; omega)

end Layout

section Layout2
variable {α : Type}

/-- A [1, 1, 4096, 4] block viewed [4096, 4], at (p, c), is the block at (0, 0, p, c). -/
theorem drop2_of_four (v : S1x1x4096x4.Idx → α) (h : S1x1x4096x4.ShapeCasts S4096x4) (p : Fin 4096) (c : Fin 4) :
    shapeCast S4096x4 v h (ix2 p c) = v (ix4 (0 : Fin 1) (0 : Fin 1) p c) :=
  shapeCast_apply _ _ (ix2 p c) (ix4 (0 : Fin 1) (0 : Fin 1) p c) (by
    rw [Shape.rowMajor_val_two, Shape.rowMajor_val_four]
    show ((0 * 1 + 0) * 4096 + p.val) * 4 + c.val = p.val * 4 + c.val; omega)

/-- A [1, 4096, 2] block viewed [4096, 2], at (p, c), is the block at (0, p, c). -/
theorem drop1_of_two (v : S1x4096x2.Idx → α) (h : S1x4096x2.ShapeCasts S4096x2) (p : Fin 4096) (c : Fin 2) :
    shapeCast S4096x2 v h (ix2 p c) = v (ix3 (0 : Fin 1) p c) :=
  shapeCast_apply _ _ (ix2 p c) (ix3 (0 : Fin 1) p c) (by
    rw [Shape.rowMajor_val_two, Shape.rowMajor_val_three]
    show (0 * 4096 + p.val) * 2 + c.val = p.val * 2 + c.val; omega)

/-- A [1, 40, 5] block viewed [40, 5], at (n, c), is the block at (0, n, c). -/
theorem drop1_of_five (v : S1x40x5.Idx → α) (h : S1x40x5.ShapeCasts S40x5) (n : Fin 40) (c : Fin 5) :
    shapeCast S40x5 v h (ix2 n c) = v (ix3 (0 : Fin 1) n c) :=
  shapeCast_apply _ _ (ix2 n c) (ix3 (0 : Fin 1) n c) (by
    rw [Shape.rowMajor_val_two, Shape.rowMajor_val_three]
    show (0 * 40 + n.val) * 5 + c.val = n.val * 5 + c.val; omega)

/-- A [1, 1, 2] block viewed [2], at c, is the block at (0, 0, c). -/
theorem drop2_of_pair (v : S1x1x2.Idx → α) (h : S1x1x2.ShapeCasts S2) (c : Fin 2) :
    shapeCast S2 v h (ix1 c) = v (ix3 (0 : Fin 1) (0 : Fin 1) c) :=
  shapeCast_apply _ _ (ix1 c) (ix3 (0 : Fin 1) (0 : Fin 1) c) (by
    rw [Shape.rowMajor_val_one, Shape.rowMajor_val_three]
    show (0 * 1 + 0) * 2 + c.val = c.val; omega)

/-- Two adjacent columns o, o + 1 of a [4096, 4] array, at (p, c), are the array at (p, o + c). -/
theorem pair_of_four (v : S4096x4.Idx → α) (o : Nat) (h : S4096x4.Slices ![0, o] S4096x2) (p : Fin 4096) (c : Fin 2) (c' : Fin 4)
    (hc : c'.val = o + c.val) : extractStridedSlice S4096x2 ![0, o] v h (ix2 p c) = v (ix2 p c') :=
  extractStridedSlice_apply _ _ _ _ (ix2 p c') (fun a => match a with
    | ⟨0, _⟩ => by show p.val = 0 + p.val; omega
    | ⟨1, _⟩ => by show c'.val = o + c.val; omega)

/-- A [2] vector as a [1, 2] row repeated down 4096 rows, at (p, c), is the vector at c. -/
theorem rows_of_pair (v : S2.Idx → α) (h : S2.ShapeCasts S1x2) (h' : S1x2.Broadcasts S4096x2) (p : Fin 4096) (c : Fin 2) :
    broadcastTo S4096x2 (shapeCast S1x2 v h) h' (ix2 p c) = v (ix1 c) := by
  refine (broadcastTo_apply _ _ (ix2 p c) (ix2 (0 : Fin 1) c) (fun a => match a with
    | ⟨0, _⟩ => by show (0 : Nat) = if (1 : Nat) = 1 then 0 else p.val; rfl
    | ⟨1, _⟩ => by show c.val = if (2 : Nat) = 1 then 0 else c.val; rfl)).trans ?_
  exact shapeCast_apply _ _ _ (ix1 c) (by
    rw [Shape.rowMajor_val_two, Shape.rowMajor_val_one]; show c.val = 0 * 2 + c.val; omega)

/-- A [4096] vector as a [4096, 1] column repeated along 40 columns, at (p, n), is the vector at p. -/
theorem cols_of_vec (v : S4096.Idx → α) (h : S4096.ShapeCasts S4096x1) (h' : S4096x1.Broadcasts S4096x40) (p : Fin 4096) (n : Fin 40) :
    broadcastTo S4096x40 (shapeCast S4096x1 v h) h' (ix2 p n) = v (ix1 p) := by
  refine (broadcastTo_apply _ _ (ix2 p n) (ix2 p (0 : Fin 1)) (fun a => match a with
    | ⟨0, _⟩ => by show p.val = if (4096 : Nat) = 1 then 0 else p.val; rfl
    | ⟨1, _⟩ => by show (0 : Nat) = if (1 : Nat) = 1 then 0 else n.val; rfl)).trans ?_
  exact shapeCast_apply _ _ _ (ix1 p) (by
    rw [Shape.rowMajor_val_two, Shape.rowMajor_val_one]; show p.val = p.val * 1 + 0; omega)

/-- A [40] vector as a [1, 40] row repeated down 4096 rows, at (p, n), is the vector at n. -/
theorem rows_of_vec (v : S40.Idx → α) (h : S40.ShapeCasts S1x40) (h' : S1x40.Broadcasts S4096x40) (p : Fin 4096) (n : Fin 40) :
    broadcastTo S4096x40 (shapeCast S1x40 v h) h' (ix2 p n) = v (ix1 n) := by
  refine (broadcastTo_apply _ _ (ix2 p n) (ix2 (0 : Fin 1) n) (fun a => match a with
    | ⟨0, _⟩ => by show (0 : Nat) = if (1 : Nat) = 1 then 0 else p.val; rfl
    | ⟨1, _⟩ => by show n.val = if (40 : Nat) = 1 then 0 else n.val; rfl)).trans ?_
  exact shapeCast_apply _ _ _ (ix1 n) (by
    rw [Shape.rowMajor_val_two, Shape.rowMajor_val_one]; show n.val = 0 * 40 + n.val; omega)

/-- A [4096, 40] array stored as a [1, 1, 4096, 40] block, at (0, 0, p, n), is the array at (p, n). -/
theorem add2_of_grid (v : S4096x40.Idx → α) (h : S4096x40.ShapeCasts S1x1x4096x40) (p : Fin 4096) (n : Fin 40) :
    shapeCast S1x1x4096x40 v h (ix4 (0 : Fin 1) (0 : Fin 1) p n) = v (ix2 p n) :=
  shapeCast_apply _ _ _ (ix2 p n) (by
    rw [Shape.rowMajor_val_two, Shape.rowMajor_val_four]
    show p.val * 40 + n.val = ((0 * 1 + 0) * 4096 + p.val) * 40 + n.val; omega)

end Layout2

/-! ## The payloads at an index -/

open Cert.Iou

/-- The offsets block viewed [4096, 4]. -/
theorem pay2_apply (x2 : Vec Ideal S1x1x4096x4 .f32) (p : Fin 4096) (c : Fin 4) :
    k0_pay2 (F := Ideal) x2 (ix2 p c) = x2 (ix4 (0 : Fin 1) (0 : Fin 1) p c) := by
  unfold k0_pay2
  exact drop2_of_four _ _ p c

/-- The proposal's centre on axis c: cell centre plus offset. -/
theorem pay3_apply (x1 : Vec Ideal S1x4096x2 .f32) (x2 : Vec Ideal S1x1x4096x4 .f32) (p : Fin 4096) (c : Fin 2) (c' : Fin 4)
    (hc : c'.val = 0 + c.val) :
    k0_pay3 (F := Ideal) x1 x2 (ix2 p c) = x1 (ix3 (0 : Fin 1) p c) + x2 (ix4 (0 : Fin 1) (0 : Fin 1) p c') := by
  unfold k0_pay3
  show shapeCast S4096x2 x1 _ (ix2 p c) + extractStridedSlice S4096x2 ![0, 0] (k0_pay2 x2) _ (ix2 p c) = _
  rw [drop1_of_two _ _ p c, pair_of_four _ 0 _ p c c' hc, pay2_apply]

/-- The proposal's size on axis c. -/
theorem pay4_apply (x0 : Vec Ideal S1x1x2 .f32) (x2 : Vec Ideal S1x1x4096x4 .f32) (p : Fin 4096) (c : Fin 2) (c' : Fin 4)
    (hc : c'.val = 2 + c.val) :
    k0_pay4 (F := Ideal) x0 x2 (ix2 p c)
      = dSize (x0 (ix3 (0 : Fin 1) (0 : Fin 1) c)) (x2 (ix4 (0 : Fin 1) (0 : Fin 1) p c')) := by
  unfold k0_pay4 dSize
  show broadcastTo S4096x2 (shapeCast S1x2 _ _) _ (ix2 p c) * Ideal.exp (extractStridedSlice S4096x2 ![0, 2] (k0_pay2 x2) _ (ix2 p c)) = _
  rw [rows_of_pair _ _ _ p c, pair_of_four _ 2 _ p c c' hc, pay2_apply]
  show (wTwo * (shapeCast S2 x0 _ (ix1 c) * wHalf)) * _ = _
  rw [drop2_of_pair _ _ c]

/-- The proposal's low corner on axis c. -/
theorem pay5_apply (x0 : Vec Ideal S1x1x2 .f32) (x1 : Vec Ideal S1x4096x2 .f32) (x2 : Vec Ideal S1x1x4096x4 .f32)
    (p : Fin 4096) (c : Fin 2) (c0 c2 : Fin 4) (h0 : c0.val = 0 + c.val) (h2 : c2.val = 2 + c.val) :
    k0_pay5 (F := Ideal) x0 x1 x2 (ix2 p c)
      = dLo (x1 (ix3 (0 : Fin 1) p c)) (x2 (ix4 (0 : Fin 1) (0 : Fin 1) p c0))
          (x0 (ix3 (0 : Fin 1) (0 : Fin 1) c)) (x2 (ix4 (0 : Fin 1) (0 : Fin 1) p c2)) := by
  unfold k0_pay5 dLo
  show k0_pay3 x1 x2 (ix2 p c) - k0_pay4 x0 x2 (ix2 p c) * wHalf = _
  rw [pay3_apply x1 x2 p c c0 h0, pay4_apply x0 x2 p c c2 h2]

/-- The proposal's high corner on axis c. -/
theorem pay6_apply (x0 : Vec Ideal S1x1x2 .f32) (x1 : Vec Ideal S1x4096x2 .f32) (x2 : Vec Ideal S1x1x4096x4 .f32)
    (p : Fin 4096) (c : Fin 2) (c0 c2 : Fin 4) (h0 : c0.val = 0 + c.val) (h2 : c2.val = 2 + c.val) :
    k0_pay6 (F := Ideal) x0 x1 x2 (ix2 p c)
      = dHi (x1 (ix3 (0 : Fin 1) p c)) (x2 (ix4 (0 : Fin 1) (0 : Fin 1) p c0))
          (x0 (ix3 (0 : Fin 1) (0 : Fin 1) c)) (x2 (ix4 (0 : Fin 1) (0 : Fin 1) p c2)) := by
  unfold k0_pay6 dHi
  show k0_pay3 x1 x2 (ix2 p c) + k0_pay4 x0 x2 (ix2 p c) * wHalf = _
  rw [pay3_apply x1 x2 p c c0 h0, pay4_apply x0 x2 p c c2 h2]

theorem pay7_apply (x0 : Vec Ideal S1x1x2 .f32) (x1 : Vec Ideal S1x4096x2 .f32) (x2 : Vec Ideal S1x1x4096x4 .f32) (p : Fin 4096) :
    k0_pay7 (F := Ideal) x0 x1 x2 (ix1 p)
      = dLo (x1 (ix3 (0 : Fin 1) p (0 : Fin 2))) (x2 (ix4 (0 : Fin 1) (0 : Fin 1) p (0 : Fin 4)))
          (x0 (ix3 (0 : Fin 1) (0 : Fin 1) (0 : Fin 2))) (x2 (ix4 (0 : Fin 1) (0 : Fin 1) p (2 : Fin 4))) := by
  unfold k0_pay7
  exact (col_of_two _ 0 _ _ p (0 : Fin 2) rfl).trans (pay5_apply x0 x1 x2 p 0 0 2 rfl rfl)

theorem pay8_apply (x0 : Vec Ideal S1x1x2 .f32) (x1 : Vec Ideal S1x4096x2 .f32) (x2 : Vec Ideal S1x1x4096x4 .f32) (p : Fin 4096) :
    k0_pay8 (F := Ideal) x0 x1 x2 (ix1 p)
      = dLo (x1 (ix3 (0 : Fin 1) p (1 : Fin 2))) (x2 (ix4 (0 : Fin 1) (0 : Fin 1) p (1 : Fin 4)))
          (x0 (ix3 (0 : Fin 1) (0 : Fin 1) (1 : Fin 2))) (x2 (ix4 (0 : Fin 1) (0 : Fin 1) p (3 : Fin 4))) := by
  unfold k0_pay8
  exact (col_of_two _ 1 _ _ p (1 : Fin 2) rfl).trans (pay5_apply x0 x1 x2 p 1 1 3 rfl rfl)

theorem pay9_apply (x0 : Vec Ideal S1x1x2 .f32) (x1 : Vec Ideal S1x4096x2 .f32) (x2 : Vec Ideal S1x1x4096x4 .f32) (p : Fin 4096) :
    k0_pay9 (F := Ideal) x0 x1 x2 (ix1 p)
      = dHi (x1 (ix3 (0 : Fin 1) p (0 : Fin 2))) (x2 (ix4 (0 : Fin 1) (0 : Fin 1) p (0 : Fin 4)))
          (x0 (ix3 (0 : Fin 1) (0 : Fin 1) (0 : Fin 2))) (x2 (ix4 (0 : Fin 1) (0 : Fin 1) p (2 : Fin 4))) := by
  unfold k0_pay9
  exact (col_of_two _ 0 _ _ p (0 : Fin 2) rfl).trans (pay6_apply x0 x1 x2 p 0 0 2 rfl rfl)

theorem pay10_apply (x0 : Vec Ideal S1x1x2 .f32) (x1 : Vec Ideal S1x4096x2 .f32) (x2 : Vec Ideal S1x1x4096x4 .f32) (p : Fin 4096) :
    k0_pay10 (F := Ideal) x0 x1 x2 (ix1 p)
      = dHi (x1 (ix3 (0 : Fin 1) p (1 : Fin 2))) (x2 (ix4 (0 : Fin 1) (0 : Fin 1) p (1 : Fin 4)))
          (x0 (ix3 (0 : Fin 1) (0 : Fin 1) (1 : Fin 2))) (x2 (ix4 (0 : Fin 1) (0 : Fin 1) p (3 : Fin 4))) := by
  unfold k0_pay10
  exact (col_of_two _ 1 _ _ p (1 : Fin 2) rfl).trans (pay6_apply x0 x1 x2 p 1 1 3 rfl rfl)

/-- The proposal's area. -/
theorem pay11_apply (x0 : Vec Ideal S1x1x2 .f32) (x2 : Vec Ideal S1x1x4096x4 .f32) (p : Fin 4096) :
    k0_pay11 (F := Ideal) x0 x2 (ix1 p)
      = dSize (x0 (ix3 (0 : Fin 1) (0 : Fin 1) (0 : Fin 2))) (x2 (ix4 (0 : Fin 1) (0 : Fin 1) p (2 : Fin 4)))
        * dSize (x0 (ix3 (0 : Fin 1) (0 : Fin 1) (1 : Fin 2))) (x2 (ix4 (0 : Fin 1) (0 : Fin 1) p (3 : Fin 4))) := by
  unfold k0_pay11
  show shapeCast S4096 (extractStridedSlice S4096x1 ![0, 0] (k0_pay4 x0 x2) _) _ (ix1 p)
      * shapeCast S4096 (extractStridedSlice S4096x1 ![0, 1] (k0_pay4 x0 x2) _) _ (ix1 p) = _
  rw [col_of_two _ 0 _ _ p (0 : Fin 2) rfl, col_of_two _ 1 _ _ p (1 : Fin 2) rfl,
    pay4_apply x0 x2 p 0 2 rfl, pay4_apply x0 x2 p 1 3 rfl]

/-- The boxes viewed [40, 5]. -/
theorem pay12_apply (x3 : Vec Ideal S1x40x5 .f32) (n : Fin 40) (c : Fin 5) :
    k0_pay12 (F := Ideal) x3 (ix2 n c) = x3 (ix3 (0 : Fin 1) n c) := by
  unfold k0_pay12
  exact drop1_of_five _ _ n c

/-- Column 0 of the boxes. -/
theorem pay13_apply (x3 : Vec Ideal S1x40x5 .f32) (n : Fin 40) :
    k0_pay13 (F := Ideal) x3 (ix1 n) = x3 (ix3 (0 : Fin 1) n (0 : Fin 5)) := by
  unfold k0_pay13
  exact ((flat_of_col _ _ n).trans (slice_of_five _ 0 _ n (0 : Fin 5) rfl)).trans (pay12_apply x3 n 0)

/-- Column 1 of the boxes, as a [40, 1] column. -/
theorem pay14_apply (x3 : Vec Ideal S1x40x5 .f32) (n : Fin 40) :
    k0_pay14 (F := Ideal) x3 (ix2 n (0 : Fin 1)) = x3 (ix3 (0 : Fin 1) n (1 : Fin 5)) := by
  unfold k0_pay14
  exact (slice_of_five _ 1 _ n (1 : Fin 5) rfl).trans (pay12_apply x3 n 1)

/-- The stored block: at (0, 0, p, n), the overlap ratio of the box with corners (v24, v26), (v28, v30) at p and area v35 at p
    with the box whose corners are v39, v40 and columns 2, 3 of v37 at n. -/
theorem pay1_apply (v24 v26 v28 v30 v35 : FVec Ideal S4096 .f32) (v37 : FVec Ideal S40x5 .f32) (v39 : FVec Ideal S40 .f32)
    (v40 : FVec Ideal S40x1 .f32) (p : Fin 4096) (n : Fin 40) :
    k0_pay1 (F := Ideal) v24 v26 v28 v30 v35 v37 v39 v40 (ix4 (0 : Fin 1) (0 : Fin 1) p n)
      = ratio (v24 (ix1 p)) (v26 (ix1 p)) (v28 (ix1 p)) (v30 (ix1 p)) (v35 (ix1 p))
          (v39 (ix1 n)) (v40 (ix2 n (0 : Fin 1))) (v37 (ix2 n (2 : Fin 5))) (v37 (ix2 n (3 : Fin 5))) := by
  unfold k0_pay1
  refine (add2_of_grid _ _ p n).trans ?_
  simp only [divf_apply, mulf_apply, subf_apply, addf_apply, maximumf_apply, minimumf_apply, broadcast_apply,
    cols_of_vec, rows_of_vec, flat_of_col,
    slice_of_five v37 2 slices_S40x5_o0_2_S40x1 n (2 : Fin 5) rfl, slice_of_five v37 3 slices_S40x5_o0_3_S40x1 n (3 : Fin 5) rfl]
  rfl

/-! ## The stored value -/

/-- What the body stores at proposal p and box n: the overlap ratio, by the direct decode, of the proposal decoded from
    the anchor's size, the cell's centre and the offsets at p with box n. -/
theorem out_entry (x0 : Vec Ideal S1x1x2 .f32) (x1 : Vec Ideal S1x4096x2 .f32) (x2 : Vec Ideal S1x1x4096x4 .f32) (x3 : Vec Ideal S1x40x5 .f32) (p : Fin 4096) (n : Fin 40) :
    out0_4 (F := Ideal) x0 x1 x2 x3 (ix4 (0 : Fin 1) (0 : Fin 1) p n) =
      Cert.Iou.iouD (x0 (ix3 (0 : Fin 1) (0 : Fin 1) (0 : Fin 2))) (x0 (ix3 (0 : Fin 1) (0 : Fin 1) (1 : Fin 2)))
        (x1 (ix3 (0 : Fin 1) p (0 : Fin 2))) (x1 (ix3 (0 : Fin 1) p (1 : Fin 2)))
        (x2 (ix4 (0 : Fin 1) (0 : Fin 1) p (0 : Fin 4))) (x2 (ix4 (0 : Fin 1) (0 : Fin 1) p (1 : Fin 4))) (x2 (ix4 (0 : Fin 1) (0 : Fin 1) p (2 : Fin 4))) (x2 (ix4 (0 : Fin 1) (0 : Fin 1) p (3 : Fin 4)))
        (x3 (ix3 (0 : Fin 1) n (0 : Fin 5))) (x3 (ix3 (0 : Fin 1) n (1 : Fin 5))) (x3 (ix3 (0 : Fin 1) n (2 : Fin 5))) (x3 (ix3 (0 : Fin 1) n (3 : Fin 5))) := by
  have hz3 : (![0, 0, 0] : Fin 3 → Nat) = fun _ => 0 := by
    funext a; match a with | ⟨0, _⟩ => rfl | ⟨1, _⟩ => rfl | ⟨2, _⟩ => rfl
  have hz4 : (![0, 0, 0, 0] : Fin 4 → Nat) = fun _ => 0 := by
    funext a; match a with | ⟨0, _⟩ => rfl | ⟨1, _⟩ => rfl | ⟨2, _⟩ => rfl | ⟨3, _⟩ => rfl
  unfold out0_4
  rw [View.canon_unit_zero hz4]
  simp only [View.ld_unit_zero (S := S1x1x2) hz3, View.ld_unit_zero (S := S1x4096x2) hz3,
    View.ld_unit_zero (S := S1x1x4096x4) hz4, View.ld_unit_zero (S := S1x40x5) hz3]
  rw [pay1_apply, pay7_apply, pay8_apply, pay9_apply, pay10_apply, pay11_apply, pay13_apply, pay14_apply,
    pay12_apply, pay12_apply]
  rfl

end Cert.KernelBody

end
-- ==== Proof.KernelArray.lean ====
/-
  The kernel's result array, read off its run.

  The region writes, at grid point (b, a), the block [b, a, ·, ·] of a [16, 9, 4096, 40] array: for every cell p of the
  4096 = 64·64 cells and every ground-truth box n, the overlap ratio by the direct decode of the anchor a, the cell
  centre, the offsets and the box. The 16·9 blocks tile the array, so the array after the region is one function of the
  arrays the windows stage. Those are reshapes of the arguments (the grid and the offsets with their two cell axes
  merged, the anchor table with a unit axis added), and the result is the region's array with its anchor and cell
  axes merged: row r of the result is anchor r / 4096 at cell r mod 4096, that is at grid position
  (r / 64 mod 64, r mod 64).
-/
import proofs.«129367_j11338713661593_2_alg».proof.Proof.KernelBody
import proofs.«129367_j11338713661593_2_alg».proof.Proof.Gen.KernelIdeal.Frame
import proofs.«129367_j11338713661593_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelArray

open Cert.KernelIdeal Cert.KernelIdeal.Gen Idealize.ShloMosaic Idealize.ShloMosaic.TcCoe Idealize.SL.Sem
open Idealize.ShloMosaic.ValueIdx Cert.Iou
open Idealize.ShloMosaic.Pipeline (Dat)

variable (m : (ℓ : Loc nD τ sig) → Buf (Elt Ideal) ℓ) (ρ : Dev nD → PrngReg)

/-! ## The region's array as one function of the staged arrays -/

/-- Entry (b, a, p, n): the ratio by the direct decode of anchor a, cell p of batch entry b, box n. -/
def GKat (v2 : S9x1x2.Idx → EReal) (v0 : S16x4096x2.Idx → EReal) (v1 : S16x9x4096x4.Idx → EReal) (bb : S16x40x5.Idx → EReal)
    (b : Fin 16) (a : Fin 9) (p : Fin 4096) (n : Fin 40) : EReal :=
  iouD (v2 (ix3 a (0 : Fin 1) (0 : Fin 2))) (v2 (ix3 a (0 : Fin 1) (1 : Fin 2)))
    (v0 (ix3 b p (0 : Fin 2))) (v0 (ix3 b p (1 : Fin 2)))
    (v1 (ix4 b a p (0 : Fin 4))) (v1 (ix4 b a p (1 : Fin 4))) (v1 (ix4 b a p (2 : Fin 4))) (v1 (ix4 b a p (3 : Fin 4)))
    (bb (ix3 b n (0 : Fin 5))) (bb (ix3 b n (1 : Fin 5))) (bb (ix3 b n (2 : Fin 5))) (bb (ix3 b n (3 : Fin 5)))

def GK (v2 : S9x1x2.Idx → EReal) (v0 : S16x4096x2.Idx → EReal) (v1 : S16x9x4096x4.Idx → EReal) (bb : S16x40x5.Idx → EReal) :
    S16x9x4096x40.Idx → EReal :=
  fun i => GKat v2 v0 v1 bb ⟨(i 0).val, (i 0).isLt⟩ ⟨(i 1).val, (i 1).isLt⟩ ⟨(i 2).val, (i 2).isLt⟩ ⟨(i 3).val, (i 3).isLt⟩

theorem GK_ix4 (v2 : S9x1x2.Idx → EReal) (v0 : S16x4096x2.Idx → EReal) (v1 : S16x9x4096x4.Idx → EReal) (bb : S16x40x5.Idx → EReal)
    (b : Fin 16) (a : Fin 9) (p : Fin 4096) (n : Fin 40) : GK v2 v0 v1 bb (ix4 b a p n) = GKat v2 v0 v1 bb b a p n := rfl

/-- One block: when the four input blocks are the staged arrays read through embeddings that put block coordinates
    (0, ·) at array coordinates (a, ·), (b, ·), (b, a, ·), (b, ·), what the body stores at (0, 0, p, n) is the array
    function at the embedded index (b, a, p, n). -/
theorem block_entry (x0 : Vec Ideal S1x1x2 .f32) (x1 : Vec Ideal S1x4096x2 .f32) (x2 : Vec Ideal S1x1x4096x4 .f32) (x3 : Vec Ideal S1x40x5 .f32)
    (A2 : S9x1x2.Idx → EReal) (A0 : S16x4096x2.Idx → EReal) (A1 : S16x9x4096x4.Idx → EReal) (A3 : S16x40x5.Idx → EReal)
    (e0 : S1x1x2.Idx → S9x1x2.Idx) (e1 : S1x4096x2.Idx → S16x4096x2.Idx) (e2 : S1x1x4096x4.Idx → S16x9x4096x4.Idx)
    (e3 : S1x40x5.Idx → S16x40x5.Idx) (e4 : S1x1x4096x40.Idx → S16x9x4096x40.Idx)
    (h0 : ∀ y, x0 y = A2 (e0 y)) (h1 : ∀ y, x1 y = A0 (e1 y)) (h2 : ∀ y, x2 y = A1 (e2 y)) (h3 : ∀ y, x3 y = A3 (e3 y))
    (b : Fin 16) (a : Fin 9)
    (c0 : ∀ k : Fin 2, e0 (ix3 (0 : Fin 1) (0 : Fin 1) k) = ix3 a (0 : Fin 1) k)
    (c1 : ∀ (p : Fin 4096) (k : Fin 2), e1 (ix3 (0 : Fin 1) p k) = ix3 b p k)
    (c2 : ∀ (p : Fin 4096) (k : Fin 4), e2 (ix4 (0 : Fin 1) (0 : Fin 1) p k) = ix4 b a p k)
    (c3 : ∀ (n : Fin 40) (k : Fin 5), e3 (ix3 (0 : Fin 1) n k) = ix3 b n k)
    (c4 : ∀ (p : Fin 4096) (n : Fin 40), e4 (ix4 (0 : Fin 1) (0 : Fin 1) p n) = ix4 b a p n)
    (p : Fin 4096) (n : Fin 40) :
    out0_4 (F := Ideal) x0 x1 x2 x3 (ix4 (0 : Fin 1) (0 : Fin 1) p n) = GK A2 A0 A1 A3 (e4 (ix4 (0 : Fin 1) (0 : Fin 1) p n)) := by
  rw [Cert.KernelBody.out_entry, c4, GK_ix4]
  simp only [h0, h1, h2, h3, c0, c1, c2, c3]
  rfl

/-! ## From blocks to the array -/

/-- The printed index maps over the 144 grid points: the output's block index is (b, a, 0, 0), the anchor window's
    (a, 0, 0), the grid's and the boxes' (b, 0, 0), the offsets' (b, a, 0, 0). -/
theorem idx_facts : ∀ t : Fin cfg0.N,
    win0_0.index t (0 : Fin 3) = win0_4.index t (1 : Fin 4) ∧ win0_0.index t (1 : Fin 3) = 0 ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 3) = win0_4.index t (0 : Fin 4) ∧ win0_3.index t (1 : Fin 3) = 0 ∧ win0_3.index t (2 : Fin 3) = 0
    ∧ win0_4.index t (0 : Fin 4) < 16 ∧ win0_4.index t (1 : Fin 4) < 9 ∧ win0_4.index t (2 : Fin 4) = 0 ∧ win0_4.index t (3 : Fin 4) = 0 :=
  (by decide +kernel : ∀ t : Fin grid0.N, _)

/-- Every block index (b, a, 0, 0) is some point's. -/
theorem idx_onto : ∀ (q0 : Fin 16) (q1 : Fin 9), ∃ t : Fin cfg0.N, win0_4.index t = ![q0.val, q1.val, 0, 0] :=
  (by decide +kernel : ∀ (q0 : Fin 16) (q1 : Fin 9), ∃ t : Fin grid0.N, win0_4.index t = ![q0.val, q1.val, 0, 0])

/-- WHAT POINT t WRITES BACK is block t of the array function of the staged arrays as the region finds them. -/
theorem flushed4_eq (c : Dev nD) (t : Fin cfg0.N) :
    (dats m 0 c).flushed 4 t = ((cfg0.win 4).blk t).view.read (Elt Ideal)
      (GK (V m c main_v2) (V m c main_v0) (V m c main_v1) (V m c main_arg3)) := by
  show (cfg0.win 4).cut (grid0.coords t) ((dats m 0 c).after 4 t) = _
  rw [after0_4]
  obtain ⟨f00, f01, f02, f10, f11, f12, f20, f21, f22, f23, f30, f31, f32, hb, ha, f42, f43⟩ := idx_facts t
  funext j
  have hj : j = ix4 (0 : Fin 1) (0 : Fin 1) (⟨(j 2).val, (j 2).isLt⟩ : Fin 4096) (⟨(j 3).val, (j 3).isLt⟩ : Fin 40) := by
    funext d; apply Fin.ext
    match d with
    | ⟨0, _⟩ => have h : (j 0).val < 1 := (j 0).isLt; show (j 0).val = 0; omega
    | ⟨1, _⟩ => have h : (j 1).val < 1 := (j 1).isLt; show (j 1).val = 0; omega
    | ⟨2, _⟩ => rfl
    | ⟨3, _⟩ => rfl
  rw [hj]
  exact block_entry (iblk m c 0 t) (iblk m c 1 t) (iblk m c 2 t) (iblk m c 3 t)
    (V m c main_v2) (V m c main_v0) (V m c main_v1) (V m c main_arg3)
    ((cfg0.win 0).blk t).view.emb ((cfg0.win 1).blk t).view.emb ((cfg0.win 2).blk t).view.emb ((cfg0.win 3).blk t).view.emb
    ((cfg0.win 4).blk t).view.emb
    (fun y => rfl) (fun y => rfl) (fun y => rfl) (fun y => rfl)
    ⟨win0_4.index t (0 : Fin 4), hb⟩ ⟨win0_4.index t (1 : Fin 4), ha⟩
    (fun k => by
      funext d; apply Fin.ext
      match d with
      | ⟨0, _⟩ => show win0_0.index t (0 : Fin 3) * 1 + 1 * 0 = win0_4.index t (1 : Fin 4); omega
      | ⟨1, _⟩ => show win0_0.index t (1 : Fin 3) * 1 + 1 * 0 = 0; omega
      | ⟨2, _⟩ => show win0_0.index t (2 : Fin 3) * 2 + 1 * k.val = k.val; omega)
    (fun p k => by
      funext d; apply Fin.ext
      match d with
      | ⟨0, _⟩ => show win0_1.index t (0 : Fin 3) * 1 + 1 * 0 = win0_4.index t (0 : Fin 4); omega
      | ⟨1, _⟩ => show win0_1.index t (1 : Fin 3) * 4096 + 1 * p.val = p.val; omega
      | ⟨2, _⟩ => show win0_1.index t (2 : Fin 3) * 2 + 1 * k.val = k.val; omega)
    (fun p k => by
      funext d; apply Fin.ext
      match d with
      | ⟨0, _⟩ => show win0_2.index t (0 : Fin 4) * 1 + 1 * 0 = win0_4.index t (0 : Fin 4); omega
      | ⟨1, _⟩ => show win0_2.index t (1 : Fin 4) * 1 + 1 * 0 = win0_4.index t (1 : Fin 4); omega
      | ⟨2, _⟩ => show win0_2.index t (2 : Fin 4) * 4096 + 1 * p.val = p.val; omega
      | ⟨3, _⟩ => show win0_2.index t (3 : Fin 4) * 4 + 1 * k.val = k.val; omega)
    (fun n k => by
      funext d; apply Fin.ext
      match d with
      | ⟨0, _⟩ => show win0_3.index t (0 : Fin 3) * 1 + 1 * 0 = win0_4.index t (0 : Fin 4); omega
      | ⟨1, _⟩ => show win0_3.index t (1 : Fin 3) * 40 + 1 * n.val = n.val; omega
      | ⟨2, _⟩ => show win0_3.index t (2 : Fin 3) * 5 + 1 * k.val = k.val; omega)
    (fun p n => by
      funext d; apply Fin.ext
      match d with
      | ⟨0, _⟩ => show win0_4.index t (0 : Fin 4) * 1 + 1 * 0 = win0_4.index t (0 : Fin 4); omega
      | ⟨1, _⟩ => show win0_4.index t (1 : Fin 4) * 1 + 1 * 0 = win0_4.index t (1 : Fin 4); omega
      | ⟨2, _⟩ => show win0_4.index t (2 : Fin 4) * 4096 + 1 * p.val = p.val; omega
      | ⟨3, _⟩ => show win0_4.index t (3 : Fin 4) * 40 + 1 * n.val = n.val; omega)
    ⟨(j 2).val, (j 2).isLt⟩ ⟨(j 3).val, (j 3).isLt⟩

/-- An index of the array is in point t's block iff each coordinate is in the block's range on its axis. -/
theorem mem_blk4 (t : Fin cfg0.N) (i : S16x9x4096x40.Idx) :
    i ∈ ((cfg0.win 4).blk t).view.set ↔ ∀ a : Fin 4, win0_4.index t a * S1x1x4096x40.size a ≤ (i a).val
      ∧ (i a).val < win0_4.index t a * S1x1x4096x40.size a + S1x1x4096x40.size a := by
  show i ∈ ((View.whole main_v3).slice (win0_4.rect t)).set ↔ _
  rw [View.set_slice_whole, Rect.mem_set_unit]
  exact Iff.rfl

/-- The 144 blocks cover the array: index (b, a, p, n) lies in the block of the point with block index (b, a, 0, 0). -/
theorem cover4 (i : S16x9x4096x40.Idx) :
    ∃ t : Fin cfg0.N, (cfg0.win 4).flush t = true ∧ i ∈ ((cfg0.win 4).blk t).view.set := by
  have hi0 : (i 0).val < 16 := (i 0).isLt
  have hi1 : (i 1).val < 9 := (i 1).isLt
  have hi2 : (i 2).val < 4096 := (i 2).isLt
  have hi3 : (i 3).val < 40 := (i 3).isLt
  obtain ⟨t, ht⟩ := idx_onto ⟨(i 0).val, hi0⟩ ⟨(i 1).val, hi1⟩
  have q0 : win0_4.index t (0 : Fin 4) = (i 0).val := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 4096 ≤ (i 2).val ∧ (i 2).val < win0_4.index t (2 : Fin 4) * 4096 + 4096; omega
  | ⟨3, _⟩ => show win0_4.index t (3 : Fin 4) * 40 ≤ (i 3).val ∧ (i 3).val < win0_4.index t (3 : Fin 4) * 40 + 40; omega

/-- THE REGION'S ARRAY after the run is the array function of the staged arrays. -/
theorem final4 (c : Dev nD) :
    (dats m 0 c).arrAt 4 cfg0.N = GK (V m c main_v2) (V m c main_v0) (V m c main_v1) (V m c main_arg3) :=
  (dats m 0 c).arrAt_eq_of_cover 4 _ (fun t _ => flushed4_eq m c t) cover4

/-! ## The staged arrays are reshapes of the arguments -/

/-- A reshape that merges the two cell axes of the cell-centre array, read at (b, p, k). -/
theorem merge_grid (x : S16x64x64x2.Idx → EReal) (h : S16x64x64x2.ShapeCasts S16x4096x2) (b : Fin 16) (p : Fin 4096) (k : Fin 2) :
    shapeCast S16x4096x2 x h (ix3 b p k)
      = x (ix4 b (⟨p.val / 64, by have := p.isLt; omega⟩ : Fin 64) (⟨p.val % 64, by omega⟩ : Fin 64) k) := by
  refine shapeCast_apply x h _ _ ?_
  rw [Shape.rowMajor_val_four, Shape.rowMajor_val_three]
  show ((b.val * 64 + p.val / 64) * 64 + p.val % 64) * 2 + k.val = (b.val * 4096 + p.val) * 2 + k.val
  omega

/-- A reshape that merges the two cell axes of the offsets array, read at (b, a, p, k). -/
theorem merge_off (x : S16x9x64x64x4.Idx → EReal) (h : S16x9x64x64x4.ShapeCasts S16x9x4096x4) (b : Fin 16) (a : Fin 9) (p : Fin 4096) (k : Fin 4) :
    shapeCast S16x9x4096x4 x h (ix4 b a p k)
      = x (ix5 b a (⟨p.val / 64, by have := p.isLt; omega⟩ : Fin 64) (⟨p.val % 64, by omega⟩ : Fin 64) k) := by
  refine shapeCast_apply x h _ _ ?_
  rw [Shape.rowMajor_val_five, Shape.rowMajor_val_four]
  show (((b.val * 9 + a.val) * 64 + p.val / 64) * 64 + p.val % 64) * 4 + k.val = ((b.val * 9 + a.val) * 4096 + p.val) * 4 + k.val
  omega

/-- A reshape that adds a unit axis to the anchor table, read at (a, 0, k). -/
theorem unit_anc (x : S9x2.Idx → EReal) (h : S9x2.ShapeCasts S9x1x2) (a : Fin 9) (k : Fin 2) :
    shapeCast S9x1x2 x h (ix3 a (0 : Fin 1) k) = x (ix2 a k) := by
  refine shapeCast_apply x h _ _ ?_
  rw [Shape.rowMajor_val_two, Shape.rowMajor_val_three]
  show a.val * 2 + k.val = (a.val * 1 + 0) * 2 + k.val
  omega

/-- A reshape that merges the anchor axis and the cell axis of the region's array, read at (b, r, n). -/
theorem merge_out (x : S16x9x4096x40.Idx → EReal) (h : S16x9x4096x40.ShapeCasts S16x36864x40) (b : Fin 16) (r : Fin 36864) (n : Fin 40) :
    shapeCast S16x36864x40 x h (ix3 b r n)
      = x (ix4 b (⟨r.val / 4096, by have := r.isLt; omega⟩ : Fin 9) (⟨r.val % 4096, by omega⟩ : Fin 4096) n) := by
  refine shapeCast_apply x h _ _ ?_
  rw [Shape.rowMajor_val_four, Shape.rowMajor_val_three]
  show ((b.val * 9 + r.val / 4096) * 4096 + r.val % 4096) * 40 + n.val = (b.val * 36864 + r.val) * 40 + n.val
  omega

theorem V_main_v0 (c : Dev nD) : (V m c main_v0 : S16x4096x2.Idx → EReal)
    = shapeCast S16x4096x2 (m ((c : Thread nD τ).loc main_arg1)) Facts₀.shapeCasts_S16x64x64x2_S16x4096x2 := by
  show StableHlo.after hostOps0 (fun b => m (c, b)) (Proc.devRef .tc main_v0) = _
  after_results; rfl

theorem V_main_v1 (c : Dev nD) : (V m c main_v1 : S16x9x4096x4.Idx → EReal)
    = shapeCast S16x9x4096x4 (m ((c : Thread nD τ).loc main_arg2)) Facts₀.shapeCasts_S16x9x64x64x4_S16x9x4096x4 := by
  show StableHlo.after hostOps0 (fun b => m (c, b)) (Proc.devRef .tc main_v1) = _
  after_results; rfl

theorem V_main_v2 (c : Dev nD) : (V m c main_v2 : S9x1x2.Idx → EReal)
    = shapeCast S9x1x2 (m ((c : Thread nD τ).loc main_arg0)) Facts₀.shapeCasts_S9x2_S9x1x2 := by
  show StableHlo.after hostOps0 (fun b => m (c, b)) (Proc.devRef .tc main_v2) = _
  after_results; rfl

/-! ## The result -/

/-- The region's array with its anchor and cell axes merged is the specification's array of the arguments. -/
theorem merged_eq (a0 : S9x2.Idx → EReal) (a1 : S16x64x64x2.Idx → EReal) (a2 : S16x9x64x64x4.Idx → EReal) (a3 : S16x40x5.Idx → EReal)
    (h0 : S9x2.ShapeCasts S9x1x2) (h1 : S16x64x64x2.ShapeCasts S16x4096x2) (h2 : S16x9x64x64x4.ShapeCasts S16x9x4096x4)
    (h4 : S16x9x4096x40.ShapeCasts S16x36864x40) :
    shapeCast S16x36864x40 (GK (shapeCast S9x1x2 a0 h0) (shapeCast S16x4096x2 a1 h1) (shapeCast S16x9x4096x4 a2 h2) a3) h4
      = G a0 a1 a2 a3 := by
  funext i
  obtain ⟨b, r, n, rfl⟩ : ∃ (b : Fin 16) (r : Fin 36864) (n : Fin 40), i = ix3 b r n := ⟨i 0, i 1, i 2, eq_ix3 i⟩
  rw [merge_out, GK_ix4]
  unfold GKat
  rw [unit_anc, unit_anc, merge_grid, merge_grid, merge_off, merge_off, merge_off, merge_off]
  have hr := r.isLt
  have eY : (⟨r.val % 4096 / 64, by omega⟩ : Fin 64) = rowY r := Fin.ext (by show r.val % 4096 / 64 = r.val / 64 % 64; omega)
  have eX : (⟨r.val % 4096 % 64, by omega⟩ : Fin 64) = rowX r := Fin.ext (by show r.val % 4096 % 64 = r.val % 64; omega)
  have eA : (⟨r.val / 4096, by omega⟩ : Fin 9) = rowA r := rfl
  show iouD _ _ _ _ _ _ _ _ _ _ _ _ = entry iouD a0 a1 a2 a3 b r n
  simp only [eY, eX, eA]
  rfl

/-- The result buffer after the host line that follows the region: the region's array, its anchor and cell axes
    merged, which is the specification's array of the arguments. -/
theorem result_eq (c : Dev nD) :
    Pipeline.afterTail₀ cfgs (dats m) 0 (V0 m) [hostOps1] c main_v4
      = G (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v4) = _
  after_results
  show shapeCast S16x36864x40 (Pipeline.withArrays (cfgs 0).spec c (V0 m c) (fun w => (dats m 0 c).arrAt w (cfgs 0).N) (Proc.tc.devRef main_v3))
      Facts₀.shapeCasts_S16x9x4096x40_S16x36864x40 = _
  have e : Pipeline.withArrays (cfgs 0).spec c (V0 m c) (fun w => (dats m 0 c).arrAt w (cfgs 0).N) (Proc.tc.devRef main_v3)
      = GK (V m c main_v2) (V m c main_v0) (V m c main_v1) (V m c main_arg3) :=
    (Pipeline.withArrays_arr spec0 launch0.win.arr_inj c _ _ 4).trans (final4 m c)
  refine (congrArg (fun x => shapeCast S16x36864x40 x Facts₀.shapeCasts_S16x9x4096x40_S16x36864x40) e).trans ?_
  rw [V_main_v0, V_main_v1, V_main_v2, V_main_arg3]
  exact merged_eq _ _ _ _ _ _ _ _

/-- THE RUN: every weakly fair execution of the program terminates with the result buffer at the specification's array of
    the arguments and the arguments unchanged. -/
theorem run : θ_run defs (onTc (τ := τ) (main (F := Ideal))) ⟨m, fun _ => 0, ρ⟩ fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v4 (Pipeline.mem_restRefs_of main_v4 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c)))⟩)
    (run_main m ρ)

end Cert.KernelArray

end
-- ==== Proof.RefBoxes.lean ====
/-
  The reference program's four corners of the proposal box.

  For a batch entry b, an anchor a and a grid cell (y, x) the reference first lays out the anchor box
  [g − s·½, g + s·½] (g the cell centre, s the anchor's size) as four columns, then reads the proposal's centre
  as the midpoint of that box plus the offset and its size as the extent of that box times exp of the log-scale,
  and writes the corners centre ∓ size·½ as the four columns of one array, finally viewed as 36864 rows per
  batch entry. This module reads that array at a row r and a column k: row r is anchor r / 4096 at the cell
  (r / 64 mod 64, r mod 64), and the four columns are the low corner on the two axes, then the high corner.
-/
import proofs.«129367_j11338713661593_2_alg».proof.Proof.Gen.ReferenceIdeal.Read
import proofs.«129367_j11338713661593_2_alg».proof.Proof.Spec
import Idealize.ShloMosaic.Lib.Pipeline.Value
import Idealize.ShloMosaic.Lib.ValueIdx

noncomputable section

namespace Cert.RefBoxes

open Idealize.ShloMosaic Idealize.ShloMosaic.ValueIdx Cert.ReferenceIdeal Cert.ReferenceIdeal.Read Cert.Iou

/-! ## Row-major positions -/

/-- The row-major position of (b, a, y, x) in a 16 × 9 × 64 × 64 array, split back into its coordinates. -/
theorem pos_b (b : Fin 16) (a : Fin 9) (y x : Fin 64) :
    (((b.val * 9 + a.val) * 64 + y.val) * 64 + x.val) / 36864 = b.val := by
  have := b.isLt; have := a.isLt; have := y.isLt; have := x.isLt; omega
theorem pos_a (b : Fin 16) (a : Fin 9) (y x : Fin 64) :
    (((b.val * 9 + a.val) * 64 + y.val) * 64 + x.val) / 4096 % 9 = a.val := by
  have := b.isLt; have := a.isLt; have := y.isLt; have := x.isLt; omega
theorem pos_y (b : Fin 16) (a : Fin 9) (y x : Fin 64) :
    (((b.val * 9 + a.val) * 64 + y.val) * 64 + x.val) / 64 % 64 = y.val := by
  have := b.isLt; have := a.isLt; have := y.isLt; have := x.isLt; omega
theorem pos_x (b : Fin 16) (a : Fin 9) (y x : Fin 64) :
    (((b.val * 9 + a.val) * 64 + y.val) * 64 + x.val) / 1 % 64 = x.val := by
  have := b.isLt; have := a.isLt; have := y.isLt; have := x.isLt; omega

/-- Dropping the trailing unit axis: the index (b, a, y, x) reads the operand at (b, a, y, x, 0). -/
theorem drop_ix (b : Fin 16) (a : Fin 9) (y x : Fin 64) :
    idx_main_v12 (ix4 b a y x) = ix5 b a y x (0 : Fin 1) := by
  funext d
  match d with
  | ⟨0, _⟩ => exact Fin.ext (pos_b b a y x)
  | ⟨1, _⟩ => exact Fin.ext (pos_a b a y x)
  | ⟨2, _⟩ => exact Fin.ext (pos_y b a y x)
  | ⟨3, _⟩ => exact Fin.ext (pos_x b a y x)
  | ⟨4, _⟩ => rfl

/-- A unit-width slice at column 0, 1, 2, 3 of the last axis reads that column. -/
theorem col0_ix (b : Fin 16) (a : Fin 9) (y x : Fin 64) :
    idx_main_v11 (ix5 b a y x (0 : Fin 1)) = ix5 b a y x (0 : Fin 4) := by
  funext d
  match d with
  | ⟨0, _⟩ => rfl
  | ⟨1, _⟩ => rfl
  | ⟨2, _⟩ => rfl
  | ⟨3, _⟩ => rfl
  | ⟨4, _⟩ => rfl
theorem col1_ix (b : Fin 16) (a : Fin 9) (y x : Fin 64) :
    idx_main_v21 (ix5 b a y x (0 : Fin 1)) = ix5 b a y x (1 : Fin 4) := by
  funext d
  match d with
  | ⟨0, _⟩ => rfl
  | ⟨1, _⟩ => rfl
  | ⟨2, _⟩ => rfl
  | ⟨3, _⟩ => rfl
  | ⟨4, _⟩ => rfl
theorem col2_ix (b : Fin 16) (a : Fin 9) (y x : Fin 64) :
    idx_main_v13 (ix5 b a y x (0 : Fin 1)) = ix5 b a y x (2 : Fin 4) := by
  funext d
  match d with
  | ⟨0, _⟩ => rfl
  | ⟨1, _⟩ => rfl
  | ⟨2, _⟩ => rfl
  | ⟨3, _⟩ => rfl
  | ⟨4, _⟩ => rfl
theorem col3_ix (b : Fin 16) (a : Fin 9) (y x : Fin 64) :
    idx_main_v23 (ix5 b a y x (0 : Fin 1)) = ix5 b a y x (3 : Fin 4) := by
  funext d
  match d with
  | ⟨0, _⟩ => rfl
  | ⟨1, _⟩ => rfl
  | ⟨2, _⟩ => rfl
  | ⟨3, _⟩ => rfl
  | ⟨4, _⟩ => rfl

/-- The cell centre broadcast over the anchors reads the grid at (b, y, x, c). -/
theorem grid_ix (b : Fin 16) (a : Fin 9) (y x : Fin 64) (c : Fin 2) :
    idx_main_v3 (idx_main_v4 (ix5 b a y x c)) = ix4 b y x c := by
  funext d
  match d with
  | ⟨0, _⟩ => rfl
  | ⟨1, _⟩ => rfl
  | ⟨2, _⟩ => rfl
  | ⟨3, _⟩ => rfl
/-- The anchor size broadcast over batch and cells reads the anchors at (a, c). -/
theorem anc_ix (b : Fin 16) (a : Fin 9) (y x : Fin 64) (c : Fin 2) :
    idx_main_v2 (idx_main_v5 (ix5 b a y x c)) = ix2 a c := by
  funext d
  match d with
  | ⟨0, _⟩ => rfl
  | ⟨1, _⟩ => rfl

section Reads

variable (x0 : (⟨S9x2, .f32⟩ : BufTy).Contents (Elt Ideal)) (x1 : (⟨S16x64x64x2, .f32⟩ : BufTy).Contents (Elt Ideal))
  (x2 : (⟨S16x9x64x64x4, .f32⟩ : BufTy).Contents (Elt Ideal))

/-! ## The anchor box -/

/-- Half the anchor's size. -/
theorem halfSize_at (b : Fin 16) (a : Fin 9) (y x : Fin 64) (c : Fin 2) :
    val_main_v5 (F := Ideal) x0 (ix5 b a y x c) = x0 (ix2 a c) * wHalf := by
  rw [val_main_v5_apply, val_main_v2_apply, anc_ix, val_main_v1_apply, val_main_v0_apply]
  rfl
/-- The cell centre, broadcast. -/
theorem centre_at (b : Fin 16) (a : Fin 9) (y x : Fin 64) (c : Fin 2) :
    val_main_v4 (F := Ideal) x1 (ix5 b a y x c) = x1 (ix4 b y x c) := by
  rw [val_main_v4_apply, val_main_v3_apply, grid_ix]

/-- The anchor box's low side g − s·½ … -/
theorem boxLo_at (b : Fin 16) (a : Fin 9) (y x : Fin 64) (c : Fin 2) :
    val_main_v6 (F := Ideal) x0 x1 (ix5 b a y x c) = x1 (ix4 b y x c) - x0 (ix2 a c) * wHalf := by
  rw [val_main_v6_apply, centre_at, halfSize_at]
  rfl
/-- … and its high side g + s·½. -/
theorem boxHi_at (b : Fin 16) (a : Fin 9) (y x : Fin 64) (c : Fin 2) :
    val_main_v9 (F := Ideal) x0 x1 (ix5 b a y x c) = x1 (ix4 b y x c) + x0 (ix2 a c) * wHalf := by
  rw [val_main_v9_apply]
  exact congrArg₂ (· + ·) (centre_at x1 b a y x c) (halfSize_at x0 b a y x c)

/-! ## The anchor box as four columns -/

/-- Columns 0 and 1 of the four-column array are the first piece's columns 0 and 1. -/
theorem cat_left (b : Fin 16) (a : Fin 9) (y x : Fin 64) (c : Fin 2) (k : Fin 4) (hk : c.val = k.val) :
    val_main_v10 (F := Ideal) x0 x1 (ix5 b a y x k) = val_main_v6 (F := Ideal) x0 x1 (ix5 b a y x c) := by
  unfold val_main_v10
  generalize val_main_v6 (F := Ideal) x0 x1 = p
  generalize val_main_v9 (F := Ideal) x0 x1 = q
  exact concatenate_pair_apply_left _ p q _ (ix5 b a y x k) rfl (ix5 b a y x c) (fun d => match d with
    | ⟨0, _⟩ => rfl
    | ⟨1, _⟩ => rfl
    | ⟨2, _⟩ => rfl
    | ⟨3, _⟩ => rfl
    | ⟨4, _⟩ => hk)
/-- Columns 2 and 3 are the second piece's columns 0 and 1. -/
theorem cat_right (b : Fin 16) (a : Fin 9) (y x : Fin 64) (c : Fin 2) (k : Fin 4) (hk : c.val + 2 = k.val) :
    val_main_v10 (F := Ideal) x0 x1 (ix5 b a y x k) = val_main_v9 (F := Ideal) x0 x1 (ix5 b a y x c) := by
  unfold val_main_v10
  generalize val_main_v6 (F := Ideal) x0 x1 = p
  generalize val_main_v9 (F := Ideal) x0 x1 = q
  exact concatenate_pair_apply_right _ p q _ (ix5 b a y x k) rfl rfl (ix5 b a y x c) (fun d => match d with
    | ⟨0, _⟩ => fun _ => rfl
    | ⟨1, _⟩ => fun _ => rfl
    | ⟨2, _⟩ => fun _ => rfl
    | ⟨3, _⟩ => fun _ => rfl
    | ⟨4, _⟩ => fun hne => absurd rfl hne) hk

theorem anchor0 (b : Fin 16) (a : Fin 9) (y x : Fin 64) :
    val_main_v10 (F := Ideal) x0 x1 (ix5 b a y x (0 : Fin 4)) = x1 (ix4 b y x (0 : Fin 2)) - x0 (ix2 a (0 : Fin 2)) * wHalf :=
  (cat_left x0 x1 b a y x 0 0 rfl).trans (boxLo_at x0 x1 b a y x 0)
theorem anchor1 (b : Fin 16) (a : Fin 9) (y x : Fin 64) :
    val_main_v10 (F := Ideal) x0 x1 (ix5 b a y x (1 : Fin 4)) = x1 (ix4 b y x (1 : Fin 2)) - x0 (ix2 a (1 : Fin 2)) * wHalf :=
  (cat_left x0 x1 b a y x 1 1 rfl).trans (boxLo_at x0 x1 b a y x 1)
theorem anchor2 (b : Fin 16) (a : Fin 9) (y x : Fin 64) :
    val_main_v10 (F := Ideal) x0 x1 (ix5 b a y x (2 : Fin 4)) = x1 (ix4 b y x (0 : Fin 2)) + x0 (ix2 a (0 : Fin 2)) * wHalf :=
  (cat_right x0 x1 b a y x 0 2 rfl).trans (boxHi_at x0 x1 b a y x 0)
theorem anchor3 (b : Fin 16) (a : Fin 9) (y x : Fin 64) :
    val_main_v10 (F := Ideal) x0 x1 (ix5 b a y x (3 : Fin 4)) = x1 (ix4 b y x (1 : Fin 2)) + x0 (ix2 a (1 : Fin 2)) * wHalf :=
  (cat_right x0 x1 b a y x 1 3 rfl).trans (boxHi_at x0 x1 b a y x 1)

/-! ## One column of the anchor box or of the offsets, read through a slice and the drop of its unit axis -/

theorem v12_at (b : Fin 16) (a : Fin 9) (y x : Fin 64) :
    val_main_v12 (F := Ideal) x0 x1 (ix4 b a y x) = val_main_v10 (F := Ideal) x0 x1 (ix5 b a y x (0 : Fin 4)) := by
  rw [val_main_v12_apply, val_main_v11_apply]
  exact congrArg (val_main_v10 (F := Ideal) x0 x1) ((congrArg idx_main_v11 (drop_ix b a y x)).trans (col0_ix b a y x))
theorem v14_at (b : Fin 16) (a : Fin 9) (y x : Fin 64) :
    val_main_v14 (F := Ideal) x0 x1 (ix4 b a y x) = val_main_v10 (F := Ideal) x0 x1 (ix5 b a y x (2 : Fin 4)) := by
  rw [val_main_v14_apply, val_main_v13_apply]
  exact congrArg (val_main_v10 (F := Ideal) x0 x1) ((congrArg idx_main_v13 (drop_ix b a y x)).trans (col2_ix b a y x))
theorem v22_at (b : Fin 16) (a : Fin 9) (y x : Fin 64) :
    val_main_v22 (F := Ideal) x0 x1 (ix4 b a y x) = val_main_v10 (F := Ideal) x0 x1 (ix5 b a y x (1 : Fin 4)) := by
  rw [val_main_v22_apply, val_main_v21_apply]
  exact congrArg (val_main_v10 (F := Ideal) x0 x1) ((congrArg idx_main_v21 (drop_ix b a y x)).trans (col1_ix b a y x))
theorem v24_at (b : Fin 16) (a : Fin 9) (y x : Fin 64) :
    val_main_v24 (F := Ideal) x0 x1 (ix4 b a y x) = val_main_v10 (F := Ideal) x0 x1 (ix5 b a y x (3 : Fin 4)) := by
  rw [val_main_v24_apply, val_main_v23_apply]
  exact congrArg (val_main_v10 (F := Ideal) x0 x1) ((congrArg idx_main_v23 (drop_ix b a y x)).trans (col3_ix b a y x))
theorem v32_at (b : Fin 16) (a : Fin 9) (y x : Fin 64) :
    val_main_v32 (F := Ideal) x0 x1 (ix4 b a y x) = val_main_v10 (F := Ideal) x0 x1 (ix5 b a y x (2 : Fin 4)) := by
  rw [val_main_v32_apply, val_main_v31_apply]
  exact congrArg (val_main_v10 (F := Ideal) x0 x1) ((congrArg idx_main_v31 (drop_ix b a y x)).trans (col2_ix b a y x))
theorem v34_at (b : Fin 16) (a : Fin 9) (y x : Fin 64) :
    val_main_v34 (F := Ideal) x0 x1 (ix4 b a y x) = val_main_v10 (F := Ideal) x0 x1 (ix5 b a y x (0 : Fin 4)) := by
  rw [val_main_v34_apply, val_main_v33_apply]
  exact congrArg (val_main_v10 (F := Ideal) x0 x1) ((congrArg idx_main_v33 (drop_ix b a y x)).trans (col0_ix b a y x))
theorem v41_at (b : Fin 16) (a : Fin 9) (y x : Fin 64) :
    val_main_v41 (F := Ideal) x0 x1 (ix4 b a y x) = val_main_v10 (F := Ideal) x0 x1 (ix5 b a y x (3 : Fin 4)) := by
  rw [val_main_v41_apply, val_main_v40_apply]
  exact congrArg (val_main_v10 (F := Ideal) x0 x1) ((congrArg idx_main_v40 (drop_ix b a y x)).trans (col3_ix b a y x))
theorem v43_at (b : Fin 16) (a : Fin 9) (y x : Fin 64) :
    val_main_v43 (F := Ideal) x0 x1 (ix4 b a y x) = val_main_v10 (F := Ideal) x0 x1 (ix5 b a y x (1 : Fin 4)) := by
  rw [val_main_v43_apply, val_main_v42_apply]
  exact congrArg (val_main_v10 (F := Ideal) x0 x1) ((congrArg idx_main_v42 (drop_ix b a y x)).trans (col1_ix b a y x))

theorem v19_at (b : Fin 16) (a : Fin 9) (y x : Fin 64) :
    val_main_v19 (F := Ideal) x2 (ix4 b a y x) = x2 (ix5 b a y x (0 : Fin 4)) := by
  rw [val_main_v19_apply, val_main_v18_apply]
  exact congrArg x2 ((congrArg idx_main_v18 (drop_ix b a y x)).trans (col0_ix b a y x))
theorem v29_at (b : Fin 16) (a : Fin 9) (y x : Fin 64) :
    val_main_v29 (F := Ideal) x2 (ix4 b a y x) = x2 (ix5 b a y x (1 : Fin 4)) := by
  rw [val_main_v29_apply, val_main_v28_apply]
  exact congrArg x2 ((congrArg idx_main_v28 (drop_ix b a y x)).trans (col1_ix b a y x))
theorem v37_at (b : Fin 16) (a : Fin 9) (y x : Fin 64) :
    val_main_v37 (F := Ideal) x2 (ix4 b a y x) = x2 (ix5 b a y x (2 : Fin 4)) := by
  rw [val_main_v37_apply, val_main_v36_apply]
  exact congrArg x2 ((congrArg idx_main_v36 (drop_ix b a y x)).trans (col2_ix b a y x))
theorem v46_at (b : Fin 16) (a : Fin 9) (y x : Fin 64) :
    val_main_v46 (F := Ideal) x2 (ix4 b a y x) = x2 (ix5 b a y x (3 : Fin 4)) := by
  rw [val_main_v46_apply, val_main_v45_apply]
  exact congrArg x2 ((congrArg idx_main_v45 (drop_ix b a y x)).trans (col3_ix b a y x))

/-! ## The proposal's centre and size on the two axes, and its corners -/

theorem centre0_at (b : Fin 16) (a : Fin 9) (y x : Fin 64) :
    val_main_v20 (F := Ideal) x0 x1 x2 (ix4 b a y x) =
      aCentre (x1 (ix4 b y x (0 : Fin 2))) (x2 (ix5 b a y x (0 : Fin 4))) (x0 (ix2 a (0 : Fin 2))) := by
  rw [val_main_v20_apply, val_main_v17_apply, val_main_v15_apply, v12_at, v14_at, v19_at, anchor0, anchor2, val_main_v16_apply]
  rfl
theorem centre1_at (b : Fin 16) (a : Fin 9) (y x : Fin 64) :
    val_main_v30 (F := Ideal) x0 x1 x2 (ix4 b a y x) =
      aCentre (x1 (ix4 b y x (1 : Fin 2))) (x2 (ix5 b a y x (1 : Fin 4))) (x0 (ix2 a (1 : Fin 2))) := by
  rw [val_main_v30_apply, val_main_v27_apply, val_main_v25_apply, v22_at, v24_at, v29_at, anchor1, anchor3, val_main_v26_apply]
  rfl
theorem size0_at (b : Fin 16) (a : Fin 9) (y x : Fin 64) :
    val_main_v39 (F := Ideal) x0 x1 x2 (ix4 b a y x) =
      aSize (x1 (ix4 b y x (0 : Fin 2))) (x0 (ix2 a (0 : Fin 2))) (x2 (ix5 b a y x (2 : Fin 4))) := by
  rw [val_main_v39_apply, val_main_v35_apply, val_main_v38_apply, v32_at, v34_at, v37_at, anchor0, anchor2]
  rfl
theorem size1_at (b : Fin 16) (a : Fin 9) (y x : Fin 64) :
    val_main_v48 (F := Ideal) x0 x1 x2 (ix4 b a y x) =
      aSize (x1 (ix4 b y x (1 : Fin 2))) (x0 (ix2 a (1 : Fin 2))) (x2 (ix5 b a y x (3 : Fin 4))) := by
  rw [val_main_v48_apply, val_main_v44_apply, val_main_v47_apply, v41_at, v43_at, v46_at, anchor1, anchor3]
  rfl

theorem lo0_at (b : Fin 16) (a : Fin 9) (y x : Fin 64) :
    val_main_v51 (F := Ideal) x0 x1 x2 (ix4 b a y x) =
      aLo (x1 (ix4 b y x (0 : Fin 2))) (x2 (ix5 b a y x (0 : Fin 4))) (x0 (ix2 a (0 : Fin 2))) (x2 (ix5 b a y x (2 : Fin 4))) := by
  rw [val_main_v51_apply, val_main_v50_apply, centre0_at, size0_at, val_main_v49_apply]
  rfl
theorem lo1_at (b : Fin 16) (a : Fin 9) (y x : Fin 64) :
    val_main_v54 (F := Ideal) x0 x1 x2 (ix4 b a y x) =
      aLo (x1 (ix4 b y x (1 : Fin 2))) (x2 (ix5 b a y x (1 : Fin 4))) (x0 (ix2 a (1 : Fin 2))) (x2 (ix5 b a y x (3 : Fin 4))) := by
  rw [val_main_v54_apply, val_main_v53_apply, centre1_at, size1_at, val_main_v52_apply]
  rfl
theorem hi0_at (b : Fin 16) (a : Fin 9) (y x : Fin 64) :
    val_main_v57 (F := Ideal) x0 x1 x2 (ix4 b a y x) =
      aHi (x1 (ix4 b y x (0 : Fin 2))) (x2 (ix5 b a y x (0 : Fin 4))) (x0 (ix2 a (0 : Fin 2))) (x2 (ix5 b a y x (2 : Fin 4))) := by
  rw [val_main_v57_apply, val_main_v56_apply, centre0_at, size0_at, val_main_v55_apply]
  rfl
theorem hi1_at (b : Fin 16) (a : Fin 9) (y x : Fin 64) :
    val_main_v60 (F := Ideal) x0 x1 x2 (ix4 b a y x) =
      aHi (x1 (ix4 b y x (1 : Fin 2))) (x2 (ix5 b a y x (1 : Fin 4))) (x0 (ix2 a (1 : Fin 2))) (x2 (ix5 b a y x (3 : Fin 4))) := by
  rw [val_main_v60_apply, val_main_v59_apply, centre1_at, size1_at, val_main_v58_apply]
  rfl

/-! ## The four corners as the columns of one array -/

/-- Adding a trailing unit axis: the index (b, a, y, x, 0) reads the operand at (b, a, y, x). -/
theorem unit_ix (b : Fin 16) (a : Fin 9) (y x : Fin 64) :
    idx_main_v61 (ix5 b a y x (0 : Fin 1)) = ix4 b a y x := by
  funext d
  match d with
  | ⟨0, _⟩ => rfl
  | ⟨1, _⟩ => rfl
  | ⟨2, _⟩ => rfl
  | ⟨3, _⟩ => rfl

theorem out0_at (b : Fin 16) (a : Fin 9) (y x : Fin 64) :
    val_main_v65 (F := Ideal) x0 x1 x2 (ix5 b a y x (0 : Fin 4)) = val_main_v51 (F := Ideal) x0 x1 x2 (ix4 b a y x) := by
  refine Eq.trans ?_ ((val_main_v61_apply x0 x1 x2 _).trans (congrArg (val_main_v51 (F := Ideal) x0 x1 x2) (unit_ix b a y x)))
  unfold val_main_v65
  generalize val_main_v61 (F := Ideal) x0 x1 x2 = p0
  generalize val_main_v62 (F := Ideal) x0 x1 x2 = p1
  generalize val_main_v63 (F := Ideal) x0 x1 x2 = p2
  generalize val_main_v64 (F := Ideal) x0 x1 x2 = p3
  exact concatenate_apply_piece _ [⟨S16x9x64x64x1, p0⟩, ⟨S16x9x64x64x1, p1⟩, ⟨S16x9x64x64x1, p2⟩, ⟨S16x9x64x64x1, p3⟩] _ (ix5 b a y x (0 : Fin 4)) 0 (show (0 : Nat) < 4 by decide) S16x9x64x64x1 p0 rfl rfl 0 rfl
    (ix5 b a y x (0 : Fin 1)) (fun d => match d with
      | ⟨0, _⟩ => fun _ => rfl
      | ⟨1, _⟩ => fun _ => rfl
      | ⟨2, _⟩ => fun _ => rfl
      | ⟨3, _⟩ => fun _ => rfl
      | ⟨4, _⟩ => fun hne => absurd rfl hne) rfl
theorem out1_at (b : Fin 16) (a : Fin 9) (y x : Fin 64) :
    val_main_v65 (F := Ideal) x0 x1 x2 (ix5 b a y x (1 : Fin 4)) = val_main_v54 (F := Ideal) x0 x1 x2 (ix4 b a y x) := by
  refine Eq.trans ?_ ((val_main_v62_apply x0 x1 x2 _).trans (congrArg (val_main_v54 (F := Ideal) x0 x1 x2) (unit_ix b a y x)))
  unfold val_main_v65
  generalize val_main_v61 (F := Ideal) x0 x1 x2 = p0
  generalize val_main_v62 (F := Ideal) x0 x1 x2 = p1
  generalize val_main_v63 (F := Ideal) x0 x1 x2 = p2
  generalize val_main_v64 (F := Ideal) x0 x1 x2 = p3
  exact concatenate_apply_piece _ [⟨S16x9x64x64x1, p0⟩, ⟨S16x9x64x64x1, p1⟩, ⟨S16x9x64x64x1, p2⟩, ⟨S16x9x64x64x1, p3⟩] _ (ix5 b a y x (1 : Fin 4)) 1 (show (1 : Nat) < 4 by decide) S16x9x64x64x1 p1 rfl rfl 1 rfl
    (ix5 b a y x (0 : Fin 1)) (fun d => match d with
      | ⟨0, _⟩ => fun _ => rfl
      | ⟨1, _⟩ => fun _ => rfl
      | ⟨2, _⟩ => fun _ => rfl
      | ⟨3, _⟩ => fun _ => rfl
      | ⟨4, _⟩ => fun hne => absurd rfl hne) rfl
theorem out2_at (b : Fin 16) (a : Fin 9) (y x : Fin 64) :
    val_main_v65 (F := Ideal) x0 x1 x2 (ix5 b a y x (2 : Fin 4)) = val_main_v57 (F := Ideal) x0 x1 x2 (ix4 b a y x) := by
  refine Eq.trans ?_ ((val_main_v63_apply x0 x1 x2 _).trans (congrArg (val_main_v57 (F := Ideal) x0 x1 x2) (unit_ix b a y x)))
  unfold val_main_v65
  generalize val_main_v61 (F := Ideal) x0 x1 x2 = p0
  generalize val_main_v62 (F := Ideal) x0 x1 x2 = p1
  generalize val_main_v63 (F := Ideal) x0 x1 x2 = p2
  generalize val_main_v64 (F := Ideal) x0 x1 x2 = p3
  exact concatenate_apply_piece _ [⟨S16x9x64x64x1, p0⟩, ⟨S16x9x64x64x1, p1⟩, ⟨S16x9x64x64x1, p2⟩, ⟨S16x9x64x64x1, p3⟩] _ (ix5 b a y x (2 : Fin 4)) 2 (show (2 : Nat) < 4 by decide) S16x9x64x64x1 p2 rfl rfl 2 rfl
    (ix5 b a y x (0 : Fin 1)) (fun d => match d with
      | ⟨0, _⟩ => fun _ => rfl
      | ⟨1, _⟩ => fun _ => rfl
      | ⟨2, _⟩ => fun _ => rfl
      | ⟨3, _⟩ => fun _ => rfl
      | ⟨4, _⟩ => fun hne => absurd rfl hne) rfl
theorem out3_at (b : Fin 16) (a : Fin 9) (y x : Fin 64) :
    val_main_v65 (F := Ideal) x0 x1 x2 (ix5 b a y x (3 : Fin 4)) = val_main_v60 (F := Ideal) x0 x1 x2 (ix4 b a y x) := by
  refine Eq.trans ?_ ((val_main_v64_apply x0 x1 x2 _).trans (congrArg (val_main_v60 (F := Ideal) x0 x1 x2) (unit_ix b a y x)))
  unfold val_main_v65
  generalize val_main_v61 (F := Ideal) x0 x1 x2 = p0
  generalize val_main_v62 (F := Ideal) x0 x1 x2 = p1
  generalize val_main_v63 (F := Ideal) x0 x1 x2 = p2
  generalize val_main_v64 (F := Ideal) x0 x1 x2 = p3
  exact concatenate_apply_piece _ [⟨S16x9x64x64x1, p0⟩, ⟨S16x9x64x64x1, p1⟩, ⟨S16x9x64x64x1, p2⟩, ⟨S16x9x64x64x1, p3⟩] _ (ix5 b a y x (3 : Fin 4)) 3 (show (3 : Nat) < 4 by decide) S16x9x64x64x1 p3 rfl rfl 3 rfl
    (ix5 b a y x (0 : Fin 1)) (fun d => match d with
      | ⟨0, _⟩ => fun _ => rfl
      | ⟨1, _⟩ => fun _ => rfl
      | ⟨2, _⟩ => fun _ => rfl
      | ⟨3, _⟩ => fun _ => rfl
      | ⟨4, _⟩ => fun hne => absurd rfl hne) rfl

/-! ## The rows of a batch entry -/

/-- Row r, column k of a batch entry's 36864 × 1 × 4 view is the element (r / 4096, r / 64 mod 64, r mod 64, k). -/
theorem row_ix (b : Fin 16) (r : Fin 36864) (k : Fin 4) :
    idx_main_v66 (ix4 b r (0 : Fin 1) k) = ix5 b (rowA r) (rowY r) (rowX r) k := by
  have hb := b.isLt; have hr := r.isLt; have hk := k.isLt
  funext d
  match d with
  | ⟨0, _⟩ =>
    exact Fin.ext (by show (((b.val * 36864 + r.val) * 1 + 0) * 4 + k.val) / 147456 = b.val; omega)
  | ⟨1, _⟩ =>
    exact Fin.ext (by show (((b.val * 36864 + r.val) * 1 + 0) * 4 + k.val) / 16384 % 9 = r.val / 4096; omega)
  | ⟨2, _⟩ =>
    exact Fin.ext (by show (((b.val * 36864 + r.val) * 1 + 0) * 4 + k.val) / 256 % 64 = r.val / 64 % 64; omega)
  | ⟨3, _⟩ =>
    exact Fin.ext (by show (((b.val * 36864 + r.val) * 1 + 0) * 4 + k.val) / 4 % 64 = r.val % 64; omega)
  | ⟨4, _⟩ =>
    exact Fin.ext (by show (((b.val * 36864 + r.val) * 1 + 0) * 4 + k.val) % 4 = k.val; omega)

end Reads

/-- The four columns of row r of batch entry b: the proposal's low corner on the two axes, then its high corner,
    decoded through the anchor box of anchor r / 4096 at the cell (r / 64 mod 64, r mod 64). -/
theorem boxes (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) :
    val_main_v66 (F := Ideal) x0 x1 x2 (ix4 b r (0 : Fin 1) (0 : Fin 4)) =
        aLo (x1 (ix4 b (rowY r) (rowX r) (0 : Fin 2))) (x2 (ix5 b (rowA r) (rowY r) (rowX r) (0 : Fin 4))) (x0 (ix2 (rowA r) (0 : Fin 2))) (x2 (ix5 b (rowA r) (rowY r) (rowX r) (2 : Fin 4)))
    ∧ val_main_v66 (F := Ideal) x0 x1 x2 (ix4 b r (0 : Fin 1) (1 : Fin 4)) =
        aLo (x1 (ix4 b (rowY r) (rowX r) (1 : Fin 2))) (x2 (ix5 b (rowA r) (rowY r) (rowX r) (1 : Fin 4))) (x0 (ix2 (rowA r) (1 : Fin 2))) (x2 (ix5 b (rowA r) (rowY r) (rowX r) (3 : Fin 4)))
    ∧ val_main_v66 (F := Ideal) x0 x1 x2 (ix4 b r (0 : Fin 1) (2 : Fin 4)) =
        aHi (x1 (ix4 b (rowY r) (rowX r) (0 : Fin 2))) (x2 (ix5 b (rowA r) (rowY r) (rowX r) (0 : Fin 4))) (x0 (ix2 (rowA r) (0 : Fin 2))) (x2 (ix5 b (rowA r) (rowY r) (rowX r) (2 : Fin 4)))
    ∧ val_main_v66 (F := Ideal) x0 x1 x2 (ix4 b r (0 : Fin 1) (3 : Fin 4)) =
        aHi (x1 (ix4 b (rowY r) (rowX r) (1 : Fin 2))) (x2 (ix5 b (rowA r) (rowY r) (rowX r) (1 : Fin 4))) (x0 (ix2 (rowA r) (1 : Fin 2))) (x2 (ix5 b (rowA r) (rowY r) (rowX r) (3 : Fin 4))) := by
  refine ⟨?_, ?_, ?_, ?_⟩
  · rw [val_main_v66_apply, row_ix, out0_at, lo0_at]
  · rw [val_main_v66_apply, row_ix, out1_at, lo1_at]
  · rw [val_main_v66_apply, row_ix, out2_at, hi0_at]
  · rw [val_main_v66_apply, row_ix, out3_at, hi1_at]

end Cert.RefBoxes

end
-- ==== Proof.RefRatio.lean ====
/-
  The reference's overlap ratio read from its proposal-box corners.

  After the decode the reference holds the four corner columns of every proposal box as one array of shape
  [16, 36864, 1, 4] and the ground-truth boxes as [16, 40, 5]. It slices out single columns, drops or adds unit axes,
  stretches the proposal columns along the box axis and the box columns along the proposal axis, and combines them
  pointwise: two maxima and two minima for the overlap's corners, two differences clamped below at zero, their
  product, the two areas, and the quotient of the overlap by the union. Read at one entry (b, r, n) this is the
  shared function of the four proposal corners, the proposal's area as the product of its corner differences, and
  the four box corners.
-/
import proofs.«129367_j11338713661593_2_alg».proof.Proof.Gen.ReferenceIdeal.Read
import proofs.«129367_j11338713661593_2_alg».proof.Proof.Spec
import Idealize.ShloMosaic.Lib.Pipeline.Value
import Idealize.ShloMosaic.Lib.ValueIdx

noncomputable section

namespace Cert.RefRatio

open Idealize.ShloMosaic Idealize.ShloMosaic.ValueIdx Cert.ReferenceIdeal Cert.ReferenceIdeal.Read Cert.Iou

/-! ## The proposal's corner columns -/

/-- Column 0 of the proposal corners, the unit axis dropped. -/
theorem corner70 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) :
    val_main_v70 (F := Ideal) x0 x1 x2 (ix3 b r (0 : Fin 1)) = val_main_v66 (F := Ideal) x0 x1 x2 (ix4 b r (0 : Fin 1) (0 : Fin 4)) := by
  refine (val_main_v70_apply x0 x1 x2 _).trans ((val_main_v69_apply x0 x1 x2 _).trans ?_)
  refine congrArg (val_main_v66 (F := Ideal) x0 x1 x2) (funext fun a => ?_)
  have hb : b.val < 16 := b.isLt
  have hr : r.val < 36864 := r.isLt
  match a with
  | ⟨0, _⟩ => exact Fin.ext (by show ((b.val * 36864 + r.val) * 1 + 0) / 36864 = b.val; omega)
  | ⟨1, _⟩ => exact Fin.ext (by show ((b.val * 36864 + r.val) * 1 + 0) / 1 % 36864 = r.val; omega)
  | ⟨2, _⟩ => exact Fin.ext (by show (0 : Nat) = 0; rfl)
  | ⟨3, _⟩ => exact Fin.ext (by show (0 : Nat) = 0; rfl)

/-- Column 1 of the proposal corners, the unit axis dropped. -/
theorem corner77 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) :
    val_main_v77 (F := Ideal) x0 x1 x2 (ix3 b r (0 : Fin 1)) = val_main_v66 (F := Ideal) x0 x1 x2 (ix4 b r (0 : Fin 1) (1 : Fin 4)) := by
  refine (val_main_v77_apply x0 x1 x2 _).trans ((val_main_v76_apply x0 x1 x2 _).trans ?_)
  refine congrArg (val_main_v66 (F := Ideal) x0 x1 x2) (funext fun a => ?_)
  have hb : b.val < 16 := b.isLt
  have hr : r.val < 36864 := r.isLt
  match a with
  | ⟨0, _⟩ => exact Fin.ext (by show ((b.val * 36864 + r.val) * 1 + 0) / 36864 = b.val; omega)
  | ⟨1, _⟩ => exact Fin.ext (by show ((b.val * 36864 + r.val) * 1 + 0) / 1 % 36864 = r.val; omega)
  | ⟨2, _⟩ => exact Fin.ext (by show (0 : Nat) = 0; rfl)
  | ⟨3, _⟩ => exact Fin.ext (by show 1 + 0 = 1; rfl)

/-- Column 2 of the proposal corners, the unit axis dropped. -/
theorem corner84 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) :
    val_main_v84 (F := Ideal) x0 x1 x2 (ix3 b r (0 : Fin 1)) = val_main_v66 (F := Ideal) x0 x1 x2 (ix4 b r (0 : Fin 1) (2 : Fin 4)) := by
  refine (val_main_v84_apply x0 x1 x2 _).trans ((val_main_v83_apply x0 x1 x2 _).trans ?_)
  refine congrArg (val_main_v66 (F := Ideal) x0 x1 x2) (funext fun a => ?_)
  have hb : b.val < 16 := b.isLt
  have hr : r.val < 36864 := r.isLt
  match a with
  | ⟨0, _⟩ => exact Fin.ext (by show ((b.val * 36864 + r.val) * 1 + 0) / 36864 = b.val; omega)
  | ⟨1, _⟩ => exact Fin.ext (by show ((b.val * 36864 + r.val) * 1 + 0) / 1 % 36864 = r.val; omega)
  | ⟨2, _⟩ => exact Fin.ext (by show (0 : Nat) = 0; rfl)
  | ⟨3, _⟩ => exact Fin.ext (by show 2 + 0 = 2; rfl)

/-- Column 3 of the proposal corners, the unit axis dropped. -/
theorem corner91 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) :
    val_main_v91 (F := Ideal) x0 x1 x2 (ix3 b r (0 : Fin 1)) = val_main_v66 (F := Ideal) x0 x1 x2 (ix4 b r (0 : Fin 1) (3 : Fin 4)) := by
  refine (val_main_v91_apply x0 x1 x2 _).trans ((val_main_v90_apply x0 x1 x2 _).trans ?_)
  refine congrArg (val_main_v66 (F := Ideal) x0 x1 x2) (funext fun a => ?_)
  have hb : b.val < 16 := b.isLt
  have hr : r.val < 36864 := r.isLt
  match a with
  | ⟨0, _⟩ => exact Fin.ext (by show ((b.val * 36864 + r.val) * 1 + 0) / 36864 = b.val; omega)
  | ⟨1, _⟩ => exact Fin.ext (by show ((b.val * 36864 + r.val) * 1 + 0) / 1 % 36864 = r.val; omega)
  | ⟨2, _⟩ => exact Fin.ext (by show (0 : Nat) = 0; rfl)
  | ⟨3, _⟩ => exact Fin.ext (by show 3 + 0 = 3; rfl)

/-- Column 2 of the proposal corners, the unit axis dropped. -/
theorem corner103 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) :
    val_main_v103 (F := Ideal) x0 x1 x2 (ix3 b r (0 : Fin 1)) = val_main_v66 (F := Ideal) x0 x1 x2 (ix4 b r (0 : Fin 1) (2 : Fin 4)) := by
  refine (val_main_v103_apply x0 x1 x2 _).trans ((val_main_v102_apply x0 x1 x2 _).trans ?_)
  refine congrArg (val_main_v66 (F := Ideal) x0 x1 x2) (funext fun a => ?_)
  have hb : b.val < 16 := b.isLt
  have hr : r.val < 36864 := r.isLt
  match a with
  | ⟨0, _⟩ => exact Fin.ext (by show ((b.val * 36864 + r.val) * 1 + 0) / 36864 = b.val; omega)
  | ⟨1, _⟩ => exact Fin.ext (by show ((b.val * 36864 + r.val) * 1 + 0) / 1 % 36864 = r.val; omega)
  | ⟨2, _⟩ => exact Fin.ext (by show (0 : Nat) = 0; rfl)
  | ⟨3, _⟩ => exact Fin.ext (by show 2 + 0 = 2; rfl)

/-- Column 0 of the proposal corners, the unit axis dropped. -/
theorem corner105 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) :
    val_main_v105 (F := Ideal) x0 x1 x2 (ix3 b r (0 : Fin 1)) = val_main_v66 (F := Ideal) x0 x1 x2 (ix4 b r (0 : Fin 1) (0 : Fin 4)) := by
  refine (val_main_v105_apply x0 x1 x2 _).trans ((val_main_v104_apply x0 x1 x2 _).trans ?_)
  refine congrArg (val_main_v66 (F := Ideal) x0 x1 x2) (funext fun a => ?_)
  have hb : b.val < 16 := b.isLt
  have hr : r.val < 36864 := r.isLt
  match a with
  | ⟨0, _⟩ => exact Fin.ext (by show ((b.val * 36864 + r.val) * 1 + 0) / 36864 = b.val; omega)
  | ⟨1, _⟩ => exact Fin.ext (by show ((b.val * 36864 + r.val) * 1 + 0) / 1 % 36864 = r.val; omega)
  | ⟨2, _⟩ => exact Fin.ext (by show (0 : Nat) = 0; rfl)
  | ⟨3, _⟩ => exact Fin.ext (by show (0 : Nat) = 0; rfl)

/-- Column 3 of the proposal corners, the unit axis dropped. -/
theorem corner108 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) :
    val_main_v108 (F := Ideal) x0 x1 x2 (ix3 b r (0 : Fin 1)) = val_main_v66 (F := Ideal) x0 x1 x2 (ix4 b r (0 : Fin 1) (3 : Fin 4)) := by
  refine (val_main_v108_apply x0 x1 x2 _).trans ((val_main_v107_apply x0 x1 x2 _).trans ?_)
  refine congrArg (val_main_v66 (F := Ideal) x0 x1 x2) (funext fun a => ?_)
  have hb : b.val < 16 := b.isLt
  have hr : r.val < 36864 := r.isLt
  match a with
  | ⟨0, _⟩ => exact Fin.ext (by show ((b.val * 36864 + r.val) * 1 + 0) / 36864 = b.val; omega)
  | ⟨1, _⟩ => exact Fin.ext (by show ((b.val * 36864 + r.val) * 1 + 0) / 1 % 36864 = r.val; omega)
  | ⟨2, _⟩ => exact Fin.ext (by show (0 : Nat) = 0; rfl)
  | ⟨3, _⟩ => exact Fin.ext (by show 3 + 0 = 3; rfl)

/-- Column 1 of the proposal corners, the unit axis dropped. -/
theorem corner110 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) :
    val_main_v110 (F := Ideal) x0 x1 x2 (ix3 b r (0 : Fin 1)) = val_main_v66 (F := Ideal) x0 x1 x2 (ix4 b r (0 : Fin 1) (1 : Fin 4)) := by
  refine (val_main_v110_apply x0 x1 x2 _).trans ((val_main_v109_apply x0 x1 x2 _).trans ?_)
  refine congrArg (val_main_v66 (F := Ideal) x0 x1 x2) (funext fun a => ?_)
  have hb : b.val < 16 := b.isLt
  have hr : r.val < 36864 := r.isLt
  match a with
  | ⟨0, _⟩ => exact Fin.ext (by show ((b.val * 36864 + r.val) * 1 + 0) / 36864 = b.val; omega)
  | ⟨1, _⟩ => exact Fin.ext (by show ((b.val * 36864 + r.val) * 1 + 0) / 1 % 36864 = r.val; omega)
  | ⟨2, _⟩ => exact Fin.ext (by show (0 : Nat) = 0; rfl)
  | ⟨3, _⟩ => exact Fin.ext (by show 1 + 0 = 1; rfl)

/-! ## The ground-truth box columns -/

/-- Column 0 of the ground-truth boxes, laid along the box axis. -/
theorem box72 (x3 : (⟨S16x40x5, .f32⟩ : BufTy).Contents (Elt Ideal)) (b : Fin 16) (n : Fin 40) :
    val_main_v72 (F := Ideal) x3 (ix3 b (0 : Fin 1) n) = x3 (ix3 b n (0 : Fin 5)) := by
  refine (val_main_v72_apply x3 _).trans ((val_main_v71_apply x3 _).trans ((val_main_v68_apply x3 _).trans ((val_main_v67_apply x3 _).trans ?_)))
  refine congrArg x3 (funext fun a => ?_)
  have hb : b.val < 16 := b.isLt
  have hn : n.val < 40 := n.isLt
  match a with
  | ⟨0, _⟩ => exact Fin.ext (by show ((b.val * 1 + 0) * 40 + n.val) / 40 = b.val; omega)
  | ⟨1, _⟩ => exact Fin.ext (by show ((b.val * 1 + 0) * 40 + n.val) / 1 % 40 = n.val; omega)
  | ⟨2, _⟩ => exact Fin.ext (by show (0 : Nat) = 0; rfl)

/-- Column 1 of the ground-truth boxes, laid along the box axis. -/
theorem box79 (x3 : (⟨S16x40x5, .f32⟩ : BufTy).Contents (Elt Ideal)) (b : Fin 16) (n : Fin 40) :
    val_main_v79 (F := Ideal) x3 (ix3 b (0 : Fin 1) n) = x3 (ix3 b n (1 : Fin 5)) := by
  refine (val_main_v79_apply x3 _).trans ((val_main_v78_apply x3 _).trans ((val_main_v68_apply x3 _).trans ((val_main_v67_apply x3 _).trans ?_)))
  refine congrArg x3 (funext fun a => ?_)
  have hb : b.val < 16 := b.isLt
  have hn : n.val < 40 := n.isLt
  match a with
  | ⟨0, _⟩ => exact Fin.ext (by show ((b.val * 1 + 0) * 40 + n.val) / 40 = b.val; omega)
  | ⟨1, _⟩ => exact Fin.ext (by show ((b.val * 1 + 0) * 40 + n.val) / 1 % 40 = n.val; omega)
  | ⟨2, _⟩ => exact Fin.ext (by show 1 + 0 = 1; rfl)

/-- Column 2 of the ground-truth boxes, laid along the box axis. -/
theorem box86 (x3 : (⟨S16x40x5, .f32⟩ : BufTy).Contents (Elt Ideal)) (b : Fin 16) (n : Fin 40) :
    val_main_v86 (F := Ideal) x3 (ix3 b (0 : Fin 1) n) = x3 (ix3 b n (2 : Fin 5)) := by
  refine (val_main_v86_apply x3 _).trans ((val_main_v85_apply x3 _).trans ((val_main_v68_apply x3 _).trans ((val_main_v67_apply x3 _).trans ?_)))
  refine congrArg x3 (funext fun a => ?_)
  have hb : b.val < 16 := b.isLt
  have hn : n.val < 40 := n.isLt
  match a with
  | ⟨0, _⟩ => exact Fin.ext (by show ((b.val * 1 + 0) * 40 + n.val) / 40 = b.val; omega)
  | ⟨1, _⟩ => exact Fin.ext (by show ((b.val * 1 + 0) * 40 + n.val) / 1 % 40 = n.val; omega)
  | ⟨2, _⟩ => exact Fin.ext (by show 2 + 0 = 2; rfl)

/-- Column 3 of the ground-truth boxes, laid along the box axis. -/
theorem box93 (x3 : (⟨S16x40x5, .f32⟩ : BufTy).Contents (Elt Ideal)) (b : Fin 16) (n : Fin 40) :
    val_main_v93 (F := Ideal) x3 (ix3 b (0 : Fin 1) n) = x3 (ix3 b n (3 : Fin 5)) := by
  refine (val_main_v93_apply x3 _).trans ((val_main_v92_apply x3 _).trans ((val_main_v68_apply x3 _).trans ((val_main_v67_apply x3 _).trans ?_)))
  refine congrArg x3 (funext fun a => ?_)
  have hb : b.val < 16 := b.isLt
  have hn : n.val < 40 := n.isLt
  match a with
  | ⟨0, _⟩ => exact Fin.ext (by show ((b.val * 1 + 0) * 40 + n.val) / 40 = b.val; omega)
  | ⟨1, _⟩ => exact Fin.ext (by show ((b.val * 1 + 0) * 40 + n.val) / 1 % 40 = n.val; omega)
  | ⟨2, _⟩ => exact Fin.ext (by show 3 + 0 = 3; rfl)

/-- Column 2 of the ground-truth boxes, laid along the box axis. -/
theorem box114 (x3 : (⟨S16x40x5, .f32⟩ : BufTy).Contents (Elt Ideal)) (b : Fin 16) (n : Fin 40) :
    val_main_v114 (F := Ideal) x3 (ix3 b (0 : Fin 1) n) = x3 (ix3 b n (2 : Fin 5)) := by
  refine (val_main_v114_apply x3 _).trans ((val_main_v113_apply x3 _).trans ((val_main_v68_apply x3 _).trans ((val_main_v67_apply x3 _).trans ?_)))
  refine congrArg x3 (funext fun a => ?_)
  have hb : b.val < 16 := b.isLt
  have hn : n.val < 40 := n.isLt
  match a with
  | ⟨0, _⟩ => exact Fin.ext (by show ((b.val * 1 + 0) * 40 + n.val) / 40 = b.val; omega)
  | ⟨1, _⟩ => exact Fin.ext (by show ((b.val * 1 + 0) * 40 + n.val) / 1 % 40 = n.val; omega)
  | ⟨2, _⟩ => exact Fin.ext (by show 2 + 0 = 2; rfl)

/-- Column 0 of the ground-truth boxes, laid along the box axis. -/
theorem box116 (x3 : (⟨S16x40x5, .f32⟩ : BufTy).Contents (Elt Ideal)) (b : Fin 16) (n : Fin 40) :
    val_main_v116 (F := Ideal) x3 (ix3 b (0 : Fin 1) n) = x3 (ix3 b n (0 : Fin 5)) := by
  refine (val_main_v116_apply x3 _).trans ((val_main_v115_apply x3 _).trans ((val_main_v68_apply x3 _).trans ((val_main_v67_apply x3 _).trans ?_)))
  refine congrArg x3 (funext fun a => ?_)
  have hb : b.val < 16 := b.isLt
  have hn : n.val < 40 := n.isLt
  match a with
  | ⟨0, _⟩ => exact Fin.ext (by show ((b.val * 1 + 0) * 40 + n.val) / 40 = b.val; omega)
  | ⟨1, _⟩ => exact Fin.ext (by show ((b.val * 1 + 0) * 40 + n.val) / 1 % 40 = n.val; omega)
  | ⟨2, _⟩ => exact Fin.ext (by show (0 : Nat) = 0; rfl)

/-- Column 3 of the ground-truth boxes, laid along the box axis. -/
theorem box119 (x3 : (⟨S16x40x5, .f32⟩ : BufTy).Contents (Elt Ideal)) (b : Fin 16) (n : Fin 40) :
    val_main_v119 (F := Ideal) x3 (ix3 b (0 : Fin 1) n) = x3 (ix3 b n (3 : Fin 5)) := by
  refine (val_main_v119_apply x3 _).trans ((val_main_v118_apply x3 _).trans ((val_main_v68_apply x3 _).trans ((val_main_v67_apply x3 _).trans ?_)))
  refine congrArg x3 (funext fun a => ?_)
  have hb : b.val < 16 := b.isLt
  have hn : n.val < 40 := n.isLt
  match a with
  | ⟨0, _⟩ => exact Fin.ext (by show ((b.val * 1 + 0) * 40 + n.val) / 40 = b.val; omega)
  | ⟨1, _⟩ => exact Fin.ext (by show ((b.val * 1 + 0) * 40 + n.val) / 1 % 40 = n.val; omega)
  | ⟨2, _⟩ => exact Fin.ext (by show 3 + 0 = 3; rfl)

/-- Column 1 of the ground-truth boxes, laid along the box axis. -/
theorem box121 (x3 : (⟨S16x40x5, .f32⟩ : BufTy).Contents (Elt Ideal)) (b : Fin 16) (n : Fin 40) :
    val_main_v121 (F := Ideal) x3 (ix3 b (0 : Fin 1) n) = x3 (ix3 b n (1 : Fin 5)) := by
  refine (val_main_v121_apply x3 _).trans ((val_main_v120_apply x3 _).trans ((val_main_v68_apply x3 _).trans ((val_main_v67_apply x3 _).trans ?_)))
  refine congrArg x3 (funext fun a => ?_)
  have hb : b.val < 16 := b.isLt
  have hn : n.val < 40 := n.isLt
  match a with
  | ⟨0, _⟩ => exact Fin.ext (by show ((b.val * 1 + 0) * 40 + n.val) / 40 = b.val; omega)
  | ⟨1, _⟩ => exact Fin.ext (by show ((b.val * 1 + 0) * 40 + n.val) / 1 % 40 = n.val; omega)
  | ⟨2, _⟩ => exact Fin.ext (by show 1 + 0 = 1; rfl)

/-! ## Stretching along the other axis -/

/-- A proposal column stretched along the box axis reads the column at the unit coordinate. -/
theorem rowIdx (b : Fin 16) (r : Fin 36864) (n : Fin 40) : idx_main_v73 (ix3 b r n) = ix3 b r (0 : Fin 1) :=
  funext fun a => match a with | ⟨0, _⟩ => rfl | ⟨1, _⟩ => rfl | ⟨2, _⟩ => rfl

/-- A box column stretched along the proposal axis reads the column at the unit coordinate. -/
theorem colIdx (b : Fin 16) (r : Fin 36864) (n : Fin 40) : idx_main_v74 (ix3 b r n) = ix3 b (0 : Fin 1) n :=
  funext fun a => match a with | ⟨0, _⟩ => rfl | ⟨1, _⟩ => rfl | ⟨2, _⟩ => rfl

theorem row73 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) (n : Fin 40) :
    val_main_v73 (F := Ideal) x0 x1 x2 (ix3 b r n) = val_main_v66 (F := Ideal) x0 x1 x2 (ix4 b r (0 : Fin 1) (0 : Fin 4)) :=
  (val_main_v73_apply x0 x1 x2 _).trans ((congrArg (val_main_v70 (F := Ideal) x0 x1 x2) (rowIdx b r n)).trans (corner70 x0 x1 x2 b r))

theorem row80 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) (n : Fin 40) :
    val_main_v80 (F := Ideal) x0 x1 x2 (ix3 b r n) = val_main_v66 (F := Ideal) x0 x1 x2 (ix4 b r (0 : Fin 1) (1 : Fin 4)) :=
  (val_main_v80_apply x0 x1 x2 _).trans ((congrArg (val_main_v77 (F := Ideal) x0 x1 x2) (rowIdx b r n)).trans (corner77 x0 x1 x2 b r))

theorem row87 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) (n : Fin 40) :
    val_main_v87 (F := Ideal) x0 x1 x2 (ix3 b r n) = val_main_v66 (F := Ideal) x0 x1 x2 (ix4 b r (0 : Fin 1) (2 : Fin 4)) :=
  (val_main_v87_apply x0 x1 x2 _).trans ((congrArg (val_main_v84 (F := Ideal) x0 x1 x2) (rowIdx b r n)).trans (corner84 x0 x1 x2 b r))

theorem row94 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) (n : Fin 40) :
    val_main_v94 (F := Ideal) x0 x1 x2 (ix3 b r n) = val_main_v66 (F := Ideal) x0 x1 x2 (ix4 b r (0 : Fin 1) (3 : Fin 4)) :=
  (val_main_v94_apply x0 x1 x2 _).trans ((congrArg (val_main_v91 (F := Ideal) x0 x1 x2) (rowIdx b r n)).trans (corner91 x0 x1 x2 b r))

theorem col74 (x3 : (⟨S16x40x5, .f32⟩ : BufTy).Contents (Elt Ideal)) (b : Fin 16) (r : Fin 36864) (n : Fin 40) :
    val_main_v74 (F := Ideal) x3 (ix3 b r n) = x3 (ix3 b n (0 : Fin 5)) :=
  (val_main_v74_apply x3 _).trans ((congrArg (val_main_v72 (F := Ideal) x3) (colIdx b r n)).trans (box72 x3 b n))

theorem col81 (x3 : (⟨S16x40x5, .f32⟩ : BufTy).Contents (Elt Ideal)) (b : Fin 16) (r : Fin 36864) (n : Fin 40) :
    val_main_v81 (F := Ideal) x3 (ix3 b r n) = x3 (ix3 b n (1 : Fin 5)) :=
  (val_main_v81_apply x3 _).trans ((congrArg (val_main_v79 (F := Ideal) x3) (colIdx b r n)).trans (box79 x3 b n))

theorem col88 (x3 : (⟨S16x40x5, .f32⟩ : BufTy).Contents (Elt Ideal)) (b : Fin 16) (r : Fin 36864) (n : Fin 40) :
    val_main_v88 (F := Ideal) x3 (ix3 b r n) = x3 (ix3 b n (2 : Fin 5)) :=
  (val_main_v88_apply x3 _).trans ((congrArg (val_main_v86 (F := Ideal) x3) (colIdx b r n)).trans (box86 x3 b n))

theorem col95 (x3 : (⟨S16x40x5, .f32⟩ : BufTy).Contents (Elt Ideal)) (b : Fin 16) (r : Fin 36864) (n : Fin 40) :
    val_main_v95 (F := Ideal) x3 (ix3 b r n) = x3 (ix3 b n (3 : Fin 5)) :=
  (val_main_v95_apply x3 _).trans ((congrArg (val_main_v93 (F := Ideal) x3) (colIdx b r n)).trans (box93 x3 b n))

/-! ## The two areas -/

/-- The proposal's area: the product of its corner differences. -/
theorem area124 (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (b : Fin 16) (r : Fin 36864) (n : Fin 40) :
    val_main_v124 (F := Ideal) x0 x1 x2 (ix3 b r n) =
      (val_main_v66 (F := Ideal) x0 x1 x2 (ix4 b r (0 : Fin 1) (2 : Fin 4)) - val_main_v66 (F := Ideal) x0 x1 x2 (ix4 b r (0 : Fin 1) (0 : Fin 4))) * (val_main_v66 (F := Ideal) x0 x1 x2 (ix4 b r (0 : Fin 1) (3 : Fin 4)) - val_main_v66 (F := Ideal) x0 x1 x2 (ix4 b r (0 : Fin 1) (1 : Fin 4))) := by
  refine (val_main_v124_apply x0 x1 x2 _).trans ((congrArg (val_main_v112 (F := Ideal) x0 x1 x2) (rowIdx b r n)).trans ?_)
  show (val_main_v103 (F := Ideal) x0 x1 x2 (ix3 b r (0 : Fin 1)) - val_main_v105 (F := Ideal) x0 x1 x2 (ix3 b r (0 : Fin 1)))
      * (val_main_v108 (F := Ideal) x0 x1 x2 (ix3 b r (0 : Fin 1)) - val_main_v110 (F := Ideal) x0 x1 x2 (ix3 b r (0 : Fin 1))) = _
  rw [corner103, corner105, corner108, corner110]

/-- The box's area. -/
theorem area125 (x3 : (⟨S16x40x5, .f32⟩ : BufTy).Contents (Elt Ideal)) (b : Fin 16) (r : Fin 36864) (n : Fin 40) :
    val_main_v125 (F := Ideal) x3 (ix3 b r n) = (x3 (ix3 b n (2 : Fin 5)) - x3 (ix3 b n (0 : Fin 5))) * (x3 (ix3 b n (3 : Fin 5)) - x3 (ix3 b n (1 : Fin 5))) := by
  refine (val_main_v125_apply x3 _).trans ((congrArg (val_main_v123 (F := Ideal) x3) (colIdx b r n)).trans ?_)
  show (val_main_v114 (F := Ideal) x3 (ix3 b (0 : Fin 1) n) - val_main_v116 (F := Ideal) x3 (ix3 b (0 : Fin 1) n))
      * (val_main_v119 (F := Ideal) x3 (ix3 b (0 : Fin 1) n) - val_main_v121 (F := Ideal) x3 (ix3 b (0 : Fin 1) n)) = _
  rw [box114, box116, box119, box121]

/-! ## The clamp's zero -/

theorem zero0 (i : S16x36864x40.Idx) : val_main_call0_v1 (F := Ideal) i = wZero :=
  (val_main_call0_v1_apply i).trans rfl

theorem zero1 (i : S16x36864x40.Idx) : val_main_call1_v1 (F := Ideal) i = wZero :=
  (val_main_call1_v1_apply i).trans rfl

/-! ## The ratio -/

theorem ratio_entry (x0 : (⟨S9x2, .f32⟩ : BufTy).Contents (Elt Ideal)) (x1 : (⟨S16x64x64x2, .f32⟩ : BufTy).Contents (Elt Ideal)) (x2 : (⟨S16x9x64x64x4, .f32⟩ : BufTy).Contents (Elt Ideal)) (x3 : (⟨S16x40x5, .f32⟩ : BufTy).Contents (Elt Ideal)) (b : Fin 16) (r : Fin 36864) (n : Fin 40) :
    val_main_v128 (F := Ideal) x0 x1 x2 x3 (ix3 b r n) =
      ratio (val_main_v66 (F := Ideal) x0 x1 x2 (ix4 b r (0 : Fin 1) (0 : Fin 4))) (val_main_v66 (F := Ideal) x0 x1 x2 (ix4 b r (0 : Fin 1) (1 : Fin 4)))
        (val_main_v66 (F := Ideal) x0 x1 x2 (ix4 b r (0 : Fin 1) (2 : Fin 4))) (val_main_v66 (F := Ideal) x0 x1 x2 (ix4 b r (0 : Fin 1) (3 : Fin 4)))
        ((val_main_v66 (F := Ideal) x0 x1 x2 (ix4 b r (0 : Fin 1) (2 : Fin 4)) - val_main_v66 (F := Ideal) x0 x1 x2 (ix4 b r (0 : Fin 1) (0 : Fin 4)))
          * (val_main_v66 (F := Ideal) x0 x1 x2 (ix4 b r (0 : Fin 1) (3 : Fin 4)) - val_main_v66 (F := Ideal) x0 x1 x2 (ix4 b r (0 : Fin 1) (1 : Fin 4))))
        (x3 (ix3 b n (0 : Fin 5))) (x3 (ix3 b n (1 : Fin 5))) (x3 (ix3 b n (2 : Fin 5))) (x3 (ix3 b n (3 : Fin 5))) := by
  rw [val_main_v128_apply, val_main_v127_apply, val_main_v126_apply, val_main_v101_apply, val_main_v98_apply, val_main_v100_apply,
    val_main_v97_apply, val_main_v99_apply, val_main_v89_apply, val_main_v75_apply, val_main_v96_apply, val_main_v82_apply,
    row73, row80, row87, row94, col74, col81, col88, col95, area124, area125, zero0, zero1]
  rfl

end Cert.RefRatio

end
-- ==== Proof.RefValue.lean ====
/-
  The reference's result array is the specification's array by the decode through the anchor box: its four
  proposal-box corners at row r of batch entry b are the low and high corners of that decode, and its ratio is the shared
  ratio of those corners, the proposal's area recovered as the product of the corner differences.
-/
import proofs.«129367_j11338713661593_2_alg».proof.Proof.RefBoxes
import proofs.«129367_j11338713661593_2_alg».proof.Proof.RefRatio

noncomputable section

namespace Cert.RefValue

open Idealize.ShloMosaic Idealize.ShloMosaic.ValueIdx Cert.ReferenceIdeal Cert.ReferenceIdeal.Read Cert.Iou

theorem ref_eq (x0 : (⟨S9x2, .f32⟩ : BufTy).Contents (Elt Ideal)) (x1 : (⟨S16x64x64x2, .f32⟩ : BufTy).Contents (Elt Ideal))
    (x2 : (⟨S16x9x64x64x4, .f32⟩ : BufTy).Contents (Elt Ideal)) (x3 : (⟨S16x40x5, .f32⟩ : BufTy).Contents (Elt Ideal)) :
    val_main_v128 (F := Ideal) x0 x1 x2 x3 = GA x0 x1 x2 x3 := by
  funext i
  obtain ⟨b, r, n, rfl⟩ : ∃ (b : Fin 16) (r : Fin 36864) (n : Fin 40), i = ix3 b r n := ⟨i 0, i 1, i 2, eq_ix3 i⟩
  obtain ⟨e0, e1, e2, e3⟩ := Cert.RefBoxes.boxes x0 x1 x2 b r
  rw [Cert.RefRatio.ratio_entry, e0, e1, e2, e3]
  rfl

end Cert.RefValue

end
-- ==== Proof.LibFinite.lean ====
/-
  "Every entry is finite", read back: one array's conjunct of a finiteness precondition makes every entry real.

  A precondition `jnp.all(jnp.abs(x) < inf)` prints as a reduction by `and`, over all axes and from the constant 1, of
  the entrywise comparison of `|x|` with the word `0x7F800000` broadcast from a scalar. The word is `+∞`, and on extended
  reals `max a (−a) < ⊤` excludes exactly `⊤` and `⊥`: the entry is a real number.
-/
import proofs.«129367_j11338713661593_2_alg».proof.Proof.LibReal
import Idealize.ShloMosaic.Lib.ReduceAll
import Idealize.ShloMosaic.Lib.ValueIdx
import Idealize.ShloMosaic.PureOps.Ideal.Laws

noncomputable section

namespace Cert.LibFinite

open Idealize.ShloMosaic Idealize.ShloMosaic.ValueIdx Cert.LibReal

/-- The rank-0 shape has one index. -/
instance : Subsingleton (⟨0, ![]⟩ : Shape).Idx := ⟨fun a b => funext fun d => d.elim0⟩

/-- The word `0x7F800000` is +∞. -/
theorem inf_word : Ideal.ofBits .f32 0x7F800000#32 = (⊤ : EReal) := by simp [Ideal.ofBits, Ideal.ieee]

/-- An extended real whose absolute value compares below +∞ is a real number. -/
theorem isReal_of_abs_lt (a : EReal)
    (h : FloatOps.cmpf (F := Ideal) (φ := .f32) .olt (FloatOps.hostAbsf a) (FloatOps.ofBits .f32 0x7F800000#32) = 1#1) : IsReal a := by
  have hlt : max a (-a) < ⊤ := by
    by_contra hn
    have h0 : FloatOps.cmpf (F := Ideal) (φ := .f32) .olt (FloatOps.hostAbsf a) (FloatOps.ofBits .f32 0x7F800000#32) = 0#1 := by
      show Ideal.cmp .olt (max a (-a)) (Ideal.ofBits .f32 0x7F800000#32) = 0#1
      rw [inf_word]
      unfold Ideal.cmp
      simp [hn]
    rw [h0] at h
    exact absurd h (by decide)
  induction a using EReal.rec with
  | bot => exact absurd hlt (by simp)
  | coe r => exact ⟨r, rfl⟩
  | top => exact absurd hlt (by simp)

/-- One array's conjunct: "all entries' absolute values are below +∞" (the reduction read at its one index) makes every
    entry real. -/
theorem real_of_all {s : Shape} {axes : List (Fin s.rank)} (A : FVec Ideal s .f32)
    (bc : (⟨0, ![]⟩ : Shape).BroadcastsInDim s (![] : Fin 0 → Fin s.rank))
    (rd : s.ReducesTo axes ⟨0, ![]⟩) (hS : 0 < (⟨0, ![]⟩ : Shape).numel)
    (h : Host.reduce IntOp.andi (cmpf .olt (Host.absf A) (broadcastInDim s ![] bc (constant ⟨0, ![]⟩ .f32 0x7F800000#32)))
      (constantI ⟨0, ![]⟩ 1 1#1) rd hS ix0 = 1#1)
    (i : s.Idx) : IsReal (A i) :=
  isReal_of_abs_lt (A i) (Host.reduce_andi_all _ _ rd hS ix0 h i)

end Cert.LibFinite

end
-- ==== Proof.Finite.lean ====
/-
  The finiteness precondition, read back: every entry of each of the four argument arrays is a real number.

  The precondition is the conjunction of four "all entries' absolute values are below +∞" reductions; each conjunct
  makes the entries of one array real.
-/
import proofs.«129367_j11338713661593_2_alg».proof.Pre_finite_inputs
import proofs.«129367_j11338713661593_2_alg».proof.Proof.LibFinite
import Idealize.ShloMosaic.Lib.Affine

noncomputable section

namespace Cert.Finite

open Idealize.ShloMosaic Idealize.ShloMosaic.ValueIdx Cert.LibReal Cert.LibFinite Cert.Pre_finite_inputs

theorem real_of_pre [Cert.Pre_finite_inputs.Facts] (a0 : FVec Ideal S9x2 .f32) (a1 : FVec Ideal S16x64x64x2 .f32)
    (a2 : FVec Ideal S16x9x64x64x4 .f32) (a3 : FVec Ideal S16x40x5 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all a0 _ _ _ h0', real_of_all a1 _ _ _ h1, real_of_all a2 _ _ _ h2, real_of_all a3 _ _ _ h3⟩

end Cert.Finite

end
-- ==== Proof.lean ====
/-
  The certificate of the overlap-ratio kernel against its reference.

  Both programs return, for a batch entry b, a proposal r (anchor r / 4096 at grid cell (r / 64 mod 64, r mod 64)) and a
  ground-truth box n, the ratio of the overlap of the decoded proposal box with the box to the area of their union
  (Proof/Spec.lean). The kernel decodes the proposal directly — centre g + t, size (2·(s·½))·exp u — one block of
  4096 cells times 40 boxes per grid point (b, a), and its result is that array with the anchor and cell axes merged
  (Proof/KernelBody.lean, Proof/KernelArray.lean). The reference builds the anchor box [g − s·½, g + s·½] first, takes its
  midpoint and extent, and recovers the proposal's area from its corners (Proof/RefBoxes.lean, Proof/RefRatio.lean,
  Proof/RefValue.lean). The two decodes agree on real numbers and need not at infinities, so the equality of the two
  results uses the precondition: every anchor size, cell centre and offset is finite (Proof/Finite.lean). The boxes
  enter both programs through the same operations and need no finiteness.

  The three frames are the generated ones (the reference's is its run with the result dropped), and the ideal pass
  rewrote nothing, so the idealization's conjunct is trivial.
-/
import proofs.«129367_j11338713661593_2_alg».proof.Defs
import proofs.«129367_j11338713661593_2_alg».proof.Proof.Gen.Kernel
import proofs.«129367_j11338713661593_2_alg».proof.Proof.Gen.Kernel.Skeleton
import proofs.«129367_j11338713661593_2_alg».proof.Proof.Gen.Kernel.Launch
import proofs.«129367_j11338713661593_2_alg».proof.Proof.Gen.Kernel.Points
import proofs.«129367_j11338713661593_2_alg».proof.Proof.Gen.Kernel.Frame
import proofs.«129367_j11338713661593_2_alg».proof.Proof.Gen.KernelIdeal
import proofs.«129367_j11338713661593_2_alg».proof.Proof.Gen.KernelIdeal.Skeleton
import proofs.«129367_j11338713661593_2_alg».proof.Proof.Gen.KernelIdeal.Launch
import proofs.«129367_j11338713661593_2_alg».proof.Proof.Gen.KernelIdeal.Points
import proofs.«129367_j11338713661593_2_alg».proof.Proof.Gen.KernelIdeal.Frame
import proofs.«129367_j11338713661593_2_alg».proof.Proof.Gen.ReferenceIdeal
import proofs.«129367_j11338713661593_2_alg».proof.Proof.Gen.ReferenceIdeal.Run
import proofs.«129367_j11338713661593_2_alg».proof.Proof.Gen.ReferenceIdeal.Read
import proofs.«129367_j11338713661593_2_alg».proof.Proof.Gen.Pre_finite_inputs
import proofs.«129367_j11338713661593_2_alg».proof.Proof.KernelArray
import proofs.«129367_j11338713661593_2_alg».proof.Proof.RefValue
import proofs.«129367_j11338713661593_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result is the specification's array by the direct decode
    and the reference's the array by the decode through the anchor box; with the anchor sizes, cell centres and offsets
    finite the two arrays are one. -/
theorem algebraic : Cert.algebraic_KernelIdeal_ReferenceIdeal := by
  intro m ρ m' ρ' hpre hagree
  refine ⟨_, Cert.KernelArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v128_eq, Cert.RefValue.ref_eq,
    (hagree c).1, (hagree c).2.1, (hagree c).2.2.1, (hagree c).2.2.2]
  obtain ⟨r0, r1, r2, _⟩ := Cert.Finite.real_of_pre _ _ _ _ (hpre c)
  exact Cert.Iou.GA_eq_G _ _ _ _ r0 r1 r2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
